-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x8 : Shape := ⟨2, ![4096, 8]⟩
abbrev S64x1024x1024 : Shape := ⟨3, ![64, 1024, 1024]⟩
abbrev S64x1024x512 : Shape := ⟨3, ![64, 1024, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x1024x512 : S_.BroadcastsInDim S64x1024x512 (![] : Fin 0 → Fin S64x1024x512.rank)
  reducesTo_S64x1024x512_S_d0_1_2 : S64x1024x512.ReducesTo [0, 1, 2] S_

variable [Facts]

def fn_part1 {F : FTy → Type} [FloatOps F] (main_v13 : IVec S_ 1) (main_v16 : IVec S64x1024x512 1) : IVec S_ 1 :=
  let main_c_5 : IVec S_ 1 := constantI S_ 1 1#1
  let main_v17 : IVec S_ 1 := (fun x v => Host.reduce IntOp.andi x v reducesTo_S64x1024x512_S_d0_1_2 h_S_) main_v16 main_c_5
  let main_v18 : IVec S_ 1 := andi main_v13 main_v17
  main_v18

def fn {F : FTy → Type} [FloatOps F] (main_arg0 : FVec F S4096x1024 .f32) (main_arg1 : IVec S4096x8 32) (main_arg2 : FVec F S4096x8 .f32) (main_arg3 : FVec F S64x1024x1024 .f32) (main_arg4 : FVec F S64x1024x512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x8 .f32 := Host.absf main_arg2
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S64x1024x1024 .f32 := Host.absf main_arg3
  let main_cst_2 : FVec F S_ .f32 := constant S_ .f32 0x7F800000#32
  let main_v10 : FVec F S64x1024x1024 .f32 := broadcastInDim S64x1024x1024 ![] bcast_S_S64x1024x1024 main_cst_2
  let main_v11 : IVec S64x1024x1024 1 := cmpf .olt main_v9 main_v10
  let main_c_3 : IVec S_ 1 := constantI S_ 1 1#1
  let main_v12 : IVec S_ 1 := (fun x v => Host.reduce IntOp.andi x v reducesTo_S64x1024x1024_S_d0_1_2 h_S_) main_v11 main_c_3
  let main_v13 : IVec S_ 1 := andi main_v8 main_v12
  let main_v14 : FVec F S64x1024x512 .f32 := Host.absf main_arg4
  let main_cst_4 : FVec F S_ .f32 := constant S_ .f32 0x7F800000#32
  let main_v15 : FVec F S64x1024x512 .f32 := broadcastInDim S64x1024x512 ![] bcast_S_S64x1024x512 main_cst_4
  let main_v16 : IVec S64x1024x512 1 := cmpf .olt main_v14 main_v15
  fn_part1 (F := F) main_v13 main_v16
-- ==== Kernel.lean ====
abbrev S4096x1024 : Shape := ⟨2, ![4096, 1024]⟩
abbrev S4096x8 : Shape := ⟨2, ![4096, 8]⟩
abbrev S64x1024x1024 : Shape := ⟨3, ![64, 1024, 1024]⟩
abbrev S64x1024x512 : Shape := ⟨3, ![64, 1024, 512]⟩
abbrev S32768 : Shape := ⟨1, ![32768]⟩
abbrev S4096 : Shape := ⟨1, ![4096]⟩
abbrev S32768x1 : Shape := ⟨2, ![32768, 1]⟩
abbrev S1x64 : Shape := ⟨2, ![1, 64]⟩
abbrev S32768x64 : Shape := ⟨2, ![32768, 64]⟩
abbrev S_ : Shape := ⟨0, ![]⟩
abbrev S32768x2 : Shape := ⟨2, ![32768, 2]⟩
abbrev S32768x1024 : Shape := ⟨2, ![32768, 1024]⟩
abbrev S1x1024x1024 : Shape := ⟨3, ![1, 1024, 1024]⟩
abbrev S1x1024x512 : Shape := ⟨3, ![1, 1024, 512]⟩
abbrev S1024x1024 : Shape := ⟨2, ![1024, 1024]⟩
abbrev S1024x512 : Shape := ⟨2, ![1024, 512]⟩

abbrev nBuf : Space → Nat
  | .hbm => 119
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x8, .i32⟩
  | .hbm, ⟨2, _⟩ => ⟨S4096x8, .f32⟩
  | .hbm, ⟨3, _⟩ => ⟨S64x1024x1024, .f32⟩
  | .hbm, ⟨4, _⟩ => ⟨S64x1024x512, .f32⟩
  | .hbm, ⟨5, _⟩ => ⟨S32768, .i32⟩
  | .hbm, ⟨6, _⟩ => ⟨S32768, .f32⟩
  | .hbm, ⟨7, _⟩ => ⟨S4096, .i32⟩
  | .hbm, ⟨8, _⟩ => ⟨S4096x8, .i32⟩
  | .hbm, ⟨9, _⟩ => ⟨S32768, .i32⟩
  | .hbm, ⟨10, _⟩ => ⟨S32768x1, .i32⟩
  | .hbm, ⟨11, _⟩ => ⟨S1x64, .i32⟩
  | .hbm, ⟨12, _⟩ => ⟨S32768x64, .i32⟩
  | .hbm, ⟨13, _⟩ => ⟨S32768x64, .i32⟩
  | .hbm, ⟨14, _⟩ => ⟨S32768x64, .i1⟩
  | .hbm, ⟨15, _⟩ => ⟨S32768x64, .i32⟩
  | .hbm, ⟨16, _⟩ => ⟨S_, .i32⟩
  | .hbm, ⟨17, _⟩ => ⟨S_, .i32⟩
  | .hbm, ⟨18, _⟩ => ⟨S32768x64, .i32⟩
  | .hbm, ⟨19, _⟩ => ⟨S32768x64, .i32⟩
  | .hbm, ⟨20, _⟩ => ⟨S32768, .i32⟩
  | .hbm, ⟨21, _⟩ => ⟨S_, .i32⟩
  | .hbm, ⟨22, _⟩ => ⟨S32768, .i32⟩
  | .hbm, ⟨23, _⟩ => ⟨S32768, .i1⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S32768x1, .i32⟩
  | .hbm, ⟨37, _⟩ => ⟨S32768x2, .i32⟩
  | .hbm, ⟨38, _⟩ => ⟨S32768, .i32⟩
  | .hbm, ⟨39, _⟩ => ⟨S_, .i32⟩
  | .hbm, ⟨40, _⟩ => ⟨S32768, .i32⟩
  | .hbm, ⟨41, _⟩ => ⟨S32768, .i1⟩
  | .hbm, ⟨42, _⟩ => ⟨S_, .i32⟩
  | .hbm, ⟨43, _⟩ => ⟨S_, .i32⟩
  | .hbm, ⟨44, _⟩ => ⟨S32768, .i32⟩
  | .hbm, ⟨45, _⟩ => ⟨S32768, .i32⟩
  | .hbm, ⟨46, _⟩ => ⟨S32768x1, .i1⟩
  | .hbm, ⟨47, _⟩ => ⟨S_, .i32⟩
  | .hbm, ⟨48, _⟩ => ⟨S32768, .i32⟩
  | .hbm, ⟨49, _⟩ => ⟨S32768, .i1⟩
  | .hbm, ⟨50, _⟩ => ⟨S_, .i32⟩
  | .hbm, ⟨51, _⟩ => ⟨S32768, .i32⟩
  | .hbm, ⟨52, _⟩ => ⟨S32768, .i32⟩
  | .hbm, ⟨53, _⟩ => ⟨S32768, .i32⟩
  | .hbm, ⟨54, _⟩ => ⟨S32768x1, .i32⟩
  | .hbm, ⟨55, _⟩ => ⟨S32768x1024, .f32⟩
  | .hbm, ⟨56, _⟩ => ⟨S_, .f32⟩
  | .hbm, ⟨57, _⟩ => ⟨S_, .f32⟩
  | .hbm, ⟨58, _⟩ => ⟨S32768x1024, .i1⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S64x1024x1024, .f32⟩
  | .hbm, ⟨63, _⟩ => ⟨S_, .i32⟩
  | .hbm, ⟨64, _⟩ => ⟨S32768, .i32⟩
  | .hbm, ⟨65, _⟩ => ⟨S32768, .i1⟩
  | .hbm, ⟨66, _⟩ => ⟨S_, .i32⟩
  | .hbm, ⟨67, _⟩ => ⟨S32768, .i32⟩
  | .hbm, ⟨68, _⟩ => ⟨S32768, .i32⟩
  | .hbm, ⟨69, _⟩ => ⟨S32768, .i32⟩
  | .hbm, ⟨70, _⟩ => ⟨S_, .i32⟩
  | .hbm, ⟨71, _⟩ => ⟨S32768, .i32⟩
  | .hbm, ⟨72, _⟩ => ⟨S32768, .i1⟩
  | .hbm, ⟨73, _⟩ => ⟨S_, .i32⟩
  | .hbm, ⟨74, _⟩ => ⟨S32768, .i32⟩
  | .hbm, ⟨75, _⟩ => ⟨S32768, .i32⟩
  | .hbm, ⟨76, _⟩ => ⟨S32768, .i32⟩
  | .hbm, ⟨77, _⟩ => ⟨S32768x1, .i32⟩
  | .hbm, ⟨78, _⟩ => ⟨S32768x1, .i32⟩
  | .hbm, ⟨79, _⟩ => ⟨S32768x2, .i32⟩
  | .hbm, ⟨80, _⟩ => ⟨S64x1024x1024, .f32⟩
  | .hbm, ⟨81, _⟩ => ⟨S64x1024x1024, .bf16⟩
  | .hbm, ⟨82, _⟩ => ⟨S64x1024x1024, .bf16⟩
  | .hbm, ⟨83, _⟩ => ⟨S64x1024x512, .bf16⟩
  | .hbm, ⟨84, _⟩ => ⟨S64x1024x1024, .f32⟩
  | .hbm, ⟨85, _⟩ => ⟨S_, .i32⟩
  | .hbm, ⟨86, _⟩ => ⟨S32768, .i32⟩
  | .hbm, ⟨87, _⟩ => ⟨S32768, .i1⟩
  | .hbm, ⟨88, _⟩ => ⟨S_, .i32⟩
  | .hbm, ⟨89, _⟩ => ⟨S32768, .i32⟩
  | .hbm, ⟨90, _⟩ => ⟨S32768, .i32⟩
  | .hbm, ⟨91, _⟩ => ⟨S32768, .i32⟩
  | .hbm, ⟨92, _⟩ => ⟨S_, .i32⟩
  | .hbm, ⟨93, _⟩ => ⟨S32768, .i32⟩
  | .hbm, ⟨94, _⟩ => ⟨S32768, .i1⟩
  | .hbm, ⟨95, _⟩ => ⟨S_, .i32⟩
  | .hbm, ⟨96, _⟩ => ⟨S32768, .i32⟩
  | .hbm, ⟨97, _⟩ => ⟨S32768, .i32⟩
  | .hbm, ⟨98, _⟩ => ⟨S32768, .i32⟩
  | .hbm, ⟨99, _⟩ => ⟨S32768x1, .i32⟩
  | .hbm, ⟨100, _⟩ => ⟨S32768x1, .i32⟩
  | .hbm, ⟨101, _⟩ => ⟨S32768x2, .i32⟩
  | .hbm, ⟨102, _⟩ => ⟨S32768x1024, .f32⟩
  | .hbm, ⟨103, _⟩ => ⟨S32768, .f32⟩
  | .hbm, ⟨104, _⟩ => ⟨S32768, .f32⟩
  | .hbm, ⟨105, _⟩ => ⟨S32768x1, .f32⟩
  | .hbm, ⟨106, _⟩ => ⟨S_, .f32⟩
  | .hbm, ⟨107, _⟩ => ⟨S4096x1024, .f32⟩
  | .hbm, ⟨108, _⟩ => ⟨S32768x1024, .f32⟩
  | .hbm, ⟨109, _⟩ => ⟨S32768x1024, .f32⟩
  | .hbm, ⟨110, _⟩ => ⟨S_, .i32⟩
  | .hbm, ⟨111, _⟩ => ⟨S32768, .i32⟩
  | .hbm, ⟨112, _⟩ => ⟨S32768, .i1⟩
  | .hbm, ⟨113, _⟩ => ⟨S_, .i32⟩
  | .hbm, ⟨114, _⟩ => ⟨S32768, .i32⟩
  | .hbm, ⟨115, _⟩ => ⟨S32768, .i32⟩
  | .hbm, ⟨116, _⟩ => ⟨S32768, .i32⟩
  | .hbm, ⟨117, _⟩ => ⟨S32768x1, .i32⟩
  | .hbm, ⟨118, _⟩ => ⟨S4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .f32⟩
  | .local _ .vmem, ⟨7, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_call1_call0_c : Ref sig .tc := ⟨.hbm, 16, rfl⟩
abbrev main_call1_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_call2_v0 : Ref sig .tc := ⟨.hbm, 43, rfl⟩
abbrev main_call2_v1 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_10 : Ref sig .tc := ⟨.hbm, 70, rfl⟩
abbrev main_v41 : Ref sig .tc := ⟨.hbm, 71, rfl⟩
abbrev main_v42 : Ref sig .tc := ⟨.hbm, 72, rfl⟩
abbrev main_c_11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_12 : Ref sig .tc := ⟨.hbm, 85, rfl⟩
abbrev main_v54 : Ref sig .tc := ⟨.hbm, 86, rfl⟩
abbrev main_v55 : Ref sig .tc := ⟨.hbm, 87, rfl⟩
abbrev main_c_13 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_14 : Ref sig .tc := ⟨.hbm, 92, rfl⟩
abbrev main_v59 : Ref sig .tc := ⟨.hbm, 93, rfl⟩
abbrev main_v60 : Ref sig .tc := ⟨.hbm, 94, rfl⟩
abbrev main_c_15 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_16 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_17 : Ref sig .tc := ⟨.hbm, 110, rfl⟩
abbrev main_v74 : Ref sig .tc := ⟨.hbm, 111, rfl⟩
abbrev main_v75 : Ref sig .tc := ⟨.hbm, 112, rfl⟩
abbrev main_c_18 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x8_S32768 : S4096x8.ShapeCasts S32768
  bcast_S4096_S4096x8_0 : S4096.BroadcastsInDim S4096x8 (![0] : Fin 1 → Fin S4096x8.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  bcast_S1x64_S32768x64_0_1 : S1x64.BroadcastsInDim S32768x64 (![0, 1] : Fin 2 → Fin S32768x64.rank)
  natLt_1_32 : 1 < 32
  bcast_S_S_ : S_.BroadcastsInDim S_ (![] : Fin 0 → Fin S_.rank)
  reduceWindows_S32768x64_S32768x64_w32768s1p32767_0_w1s1p0_0 : S32768x64.ReduceWindows (![32768, 1] : Fin 2 → Nat) ![1, 1] ![32767, 0] ![0, 0] S32768x64
  h_S_ : 0 < S_.numel
  bcast_S_S32768 : S_.BroadcastsInDim S32768 (![] : Fin 0 → Fin S32768.rank)
  concatenates_S32768x1_S32768x1_S32768x2_d1 : Shape.Concatenates [S32768x1, S32768x1] S32768x2 1
  bcast_S32768x1_S32768x1024_0_1 : S32768x1.BroadcastsInDim S32768x1024 (![0, 1] : Fin 2 → Fin S32768x1024.rank)
  bcast_S_S32768x1024 : S_.BroadcastsInDim S32768x1024 (![] : Fin 0 → Fin S32768x1024.rank)
  bcast_S_S64x1024x1024 : S_.BroadcastsInDim S64x1024x1024 (![] : Fin 0 → Fin S64x1024x1024.rank)
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  slices_S1024x1024_o0_0_S1024x512 : S1024x1024.Slices ![0, 0] S1024x512
  slices_S1024x1024_o0_512_S1024x512 : S1024x1024.Slices ![0, 512] S1024x512
  shapeCasts_S1024x1024_S1x1024x1024 : S1024x1024.ShapeCasts S1x1024x1024
  bcast_S_S4096x1024 : S_.BroadcastsInDim S4096x1024 (![] : Fin 0 → Fin S4096x1024.rank)
  gather_S32768x64_S32768x2_S32768_n_01_n_n_01_1_11_wf : GatherDims.WF S32768x64 S32768x2 S32768 [] [0, 1] [] [0, 1] [] 1 ![1, 1]
  gather_S4096x1024_S32768x1_S32768x1024_1_0_n_n_0_1_11024_wf : GatherDims.WF S4096x1024 S32768x1 S32768x1024 [1] [0] [] [0] [] 1 ![1, 1024]
  scatter_S64x1024x1024_S32768x2_S32768x1024_1_01_01_1_wf : ScatterDims.WF S64x1024x1024 S32768x2 S32768x1024 [1] [0, 1] [0, 1] 1
  dot_S1024x1024_S1024x1024_S1024x1024_1_1_0_0_n_n_wf : DotDims.WF S1024x1024 S1024x1024 S1024x1024 [1] [1] [0] [0] [] []
  dot_S1024x512_S1024x512_S1024x1024_1_1_0_0_n_n_wf : DotDims.WF S1024x512 S1024x512 S1024x1024 [1] [1] [0] [0] [] []
  gather_S64x1024x1024_S32768x2_S32768x1024_1_01_n_n_01_1_111024_wf : GatherDims.WF S64x1024x1024 S32768x2 S32768x1024 [1] [0, 1] [] [0, 1] [] 1 ![1, 1, 1024]
  scatter_S4096x1024_S32768x1_S32768x1024_1_0_0_1_wf : ScatterDims.WF S4096x1024 S32768x1 S32768x1024 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .bf16 = 32 ∨ (Rect.block (s := S64x1024x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .bf16 = 32 ∨ (Rect.block (s := S64x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S64x1024x512.size a
  hwx0_2 : ∀ i : grid0.Coords, EltTy.bits .bf16 = 32 ∨ (Rect.block (s := S64x1024x512) S1x1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S64x1024x1024.size a
  hwx0_3 : ∀ i : grid0.Coords, EltTy.bits .f32 = 32 ∨ (Rect.block (s := S64x1024x1024) S1x1024x1024.size (cc0_transform_3 i) (hinb0_3 i)).WholeWords (EltTy.packing .f32)

variable [Facts₀]

def gather_S32768x64_S32768x2_S32768_n_01_n_n_01_1_11 : GatherDims S32768x64 S32768x2 S32768 where
  offsetDims := []
  collapsedSliceDims := [0, 1]
  operandBatchingDims := []
  startIndicesBatchingDims := []
  startIndexMap := [0, 1]
  indexVectorDim := 1
  sliceSizes := ![1, 1]
  wf := gather_S32768x64_S32768x2_S32768_n_01_n_n_01_1_11_wf
def gather_S4096x1024_S32768x1_S32768x1024_1_0_n_n_0_1_11024 : GatherDims S4096x1024 S32768x1 S32768x1024 where
  offsetDims := [1]
  collapsedSliceDims := [0]
  operandBatchingDims := []
  startIndicesBatchingDims := []
  startIndexMap := [0]
  indexVectorDim := 1
  sliceSizes := ![1, 1024]
  wf := gather_S4096x1024_S32768x1_S32768x1024_1_0_n_n_0_1_11024_wf
def scatter_S64x1024x1024_S32768x2_S32768x1024_1_01_01_1 : ScatterDims S64x1024x1024 S32768x2 S32768x1024 where
  updateWindowDims := [1]
  insertedWindowDims := [0, 1]
  scatterDimsToOperandDims := [0, 1]
  indexVectorDim := 1
  wf := scatter_S64x1024x1024_S32768x2_S32768x1024_1_01_01_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def gather_S64x1024x1024_S32768x2_S32768x1024_1_01_n_n_01_1_111024 : GatherDims S64x1024x1024 S32768x2 S32768x1024 where
  offsetDims := [1]
  collapsedSliceDims := [0, 1]
  operandBatchingDims := []
  startIndicesBatchingDims := []
  startIndexMap := [0, 1]
  indexVectorDim := 1
  sliceSizes := ![1, 1, 1024]
  wf := gather_S64x1024x1024_S32768x2_S32768x1024_1_01_n_n_01_1_111024_wf
def scatter_S4096x1024_S32768x1_S32768x1024_1_0_0_1 : ScatterDims S4096x1024 S32768x1 S32768x1024 where
  updateWindowDims := [1]
  insertedWindowDims := [0]
  scatterDimsToOperandDims := [0]
  indexVectorDim := 1
  wf := scatter_S4096x1024_S32768x1_S32768x1024_1_0_0_1_wf

abbrev win0_0 : Pipeline.Window sig grid0 :=
  Pipeline.Window.ofSpec (Memref.whole main_v50) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x8 : Shape := ⟨2, ![4096, 8]⟩
abbrev S64x1024x1024 : Shape := ⟨3, ![64, 1024, 1024]⟩
abbrev S64x1024x512 : Shape := ⟨3, ![64, 1024, 512]⟩
abbrev S32768 : Shape := ⟨1, ![32768]⟩
abbrev S4096 : Shape := ⟨1, ![4096]⟩
abbrev S32768x1 : Shape := ⟨2, ![32768, 1]⟩
abbrev S1x64 : Shape := ⟨2, ![1, 64]⟩
abbrev S32768x64 : Shape := ⟨2, ![32768, 64]⟩
abbrev S_ : Shape := ⟨0, ![]⟩
abbrev S32768x2 : Shape := ⟨2, ![32768, 2]⟩
abbrev S32768x1024 : Shape := ⟨2, ![32768, 1024]⟩

abbrev nBuf : Space → Nat
  | .hbm => 129
  | .vmem => 0
  | .smem => 0
  | _ => 0

abbrev hbmTy0_0 (i : Nat) : BufTy := match i % 128 with
  | 0 => ⟨S4096x1024, .f32⟩
  | 1 => ⟨S4096x8, .i32⟩
  | 2 => ⟨S4096x8, .f32⟩
  | 3 => ⟨S64x1024x1024, .f32⟩
  | 4 => ⟨S64x1024x512, .f32⟩
  | 5 => ⟨S32768, .i32⟩
  | 6 => ⟨S32768, .f32⟩
  | 7 => ⟨S4096, .i32⟩
  | 8 => ⟨S4096x8, .i32⟩
  | 9 => ⟨S32768, .i32⟩
  | 10 => ⟨S32768x1, .i32⟩
  | 11 => ⟨S1x64, .i32⟩
  | 12 => ⟨S32768x64, .i32⟩
  | 13 => ⟨S32768x64, .i32⟩
  | 14 => ⟨S32768x64, .i1⟩
  | 15 => ⟨S32768x64, .i32⟩
  | 16 => ⟨S_, .i32⟩
  | 17 => ⟨S_, .i32⟩
  | 18 => ⟨S32768x64, .i32⟩
  | 19 => ⟨S32768x64, .i32⟩
  | 20 => ⟨S32768, .i32⟩
  | 21 => ⟨S_, .i32⟩
  | 22 => ⟨S32768, .i32⟩
  | 23 => ⟨S32768, .i1⟩
  | 24 => ⟨S_, .i32⟩
  | 25 => ⟨S32768, .i32⟩
  | 26 => ⟨S32768, .i32⟩
  | 27 => ⟨S32768, .i32⟩
  | 28 => ⟨S_, .i32⟩
  | 29 => ⟨S32768, .i32⟩
  | 30 => ⟨S32768, .i1⟩
  | 31 => ⟨S_, .i32⟩
  | 32 => ⟨S32768, .i32⟩
  | 33 => ⟨S32768, .i32⟩
  | 34 => ⟨S32768, .i32⟩
  | 35 => ⟨S32768x1, .i32⟩
  | 36 => ⟨S32768x1, .i32⟩
  | 37 => ⟨S32768x2, .i32⟩
  | 38 => ⟨S32768, .i32⟩
  | 39 => ⟨S_, .i32⟩
  | 40 => ⟨S32768, .i32⟩
  | 41 => ⟨S32768, .i1⟩
  | 42 => ⟨S_, .i32⟩
  | 43 => ⟨S_, .i32⟩
  | 44 => ⟨S32768, .i32⟩
  | 45 => ⟨S32768, .i32⟩
  | 46 => ⟨S32768x1, .i1⟩
  | 47 => ⟨S_, .i32⟩
  | 48 => ⟨S32768, .i32⟩
  | 49 => ⟨S32768, .i1⟩
  | 50 => ⟨S_, .i32⟩
  | 51 => ⟨S32768, .i32⟩
  | 52 => ⟨S32768, .i32⟩
  | 53 => ⟨S32768, .i32⟩
  | 54 => ⟨S32768x1, .i32⟩
  | 55 => ⟨S32768x1024, .f32⟩
  | 56 => ⟨S_, .f32⟩
  | 57 => ⟨S_, .f32⟩
  | 58 => ⟨S32768x1024, .i1⟩
  | 59 => ⟨S32768x1024, .f32⟩
  | 60 => ⟨S32768x1024, .f32⟩
  | 61 => ⟨S_, .f32⟩
  | 62 => ⟨S64x1024x1024, .f32⟩
  | 63 => ⟨S_, .i32⟩
  | 64 => ⟨S32768, .i32⟩
  | 65 => ⟨S32768, .i1⟩
  | 66 => ⟨S_, .i32⟩
  | 67 => ⟨S32768, .i32⟩
  | 68 => ⟨S32768, .i32⟩
  | 69 => ⟨S32768, .i32⟩
  | 70 => ⟨S_, .i32⟩
  | 71 => ⟨S32768, .i32⟩
  | 72 => ⟨S32768, .i1⟩
  | 73 => ⟨S_, .i32⟩
  | 74 => ⟨S32768, .i32⟩
  | 75 => ⟨S32768, .i32⟩
  | 76 => ⟨S32768, .i32⟩
  | 77 => ⟨S32768x1, .i32⟩
  | 78 => ⟨S32768x1, .i32⟩
  | 79 => ⟨S32768x2, .i32⟩
  | 80 => ⟨S64x1024x1024, .f32⟩
  | 81 => ⟨S64x1024x1024, .f32⟩
  | 82 => ⟨S64x1024x512, .f32⟩
  | 83 => ⟨S64x1024x512, .f32⟩
  | 84 => ⟨S64x1024x512, .f32⟩
  | 85 => ⟨S64x1024x512, .f32⟩
  | 86 => ⟨S_, .f32⟩
  | 87 => ⟨S64x1024x512, .f32⟩
  | 88 => ⟨S64x1024x512, .f32⟩
  | 89 => ⟨S_, .f32⟩
  | 90 => ⟨S64x1024x512, .f32⟩
  | 91 => ⟨S64x1024x512, .f32⟩
  | 92 => ⟨S64x1024x512, .f32⟩
  | 93 => ⟨S64x1024x512, .f32⟩
  | 94 => ⟨S64x1024x1024, .f32⟩
  | 95 => ⟨S_, .i32⟩
  | 96 => ⟨S32768, .i32⟩
  | 97 => ⟨S32768, .i1⟩
  | 98 => ⟨S_, .i32⟩
  | 99 => ⟨S32768, .i32⟩
  | 100 => ⟨S32768, .i32⟩
  | 101 => ⟨S32768, .i32⟩
  | 102 => ⟨S_, .i32⟩
  | 103 => ⟨S32768, .i32⟩
  | 104 => ⟨S32768, .i1⟩
  | 105 => ⟨S_, .i32⟩
  | 106 => ⟨S32768, .i32⟩
  | 107 => ⟨S32768, .i32⟩
  | 108 => ⟨S32768, .i32⟩
  | 109 => ⟨S32768x1, .i32⟩
  | 110 => ⟨S32768x1, .i32⟩
  | 111 => ⟨S32768x2, .i32⟩
  | 112 => ⟨S32768x1024, .f32⟩
  | 113 => ⟨S32768, .f32⟩
  | 114 => ⟨S32768, .f32⟩
  | 115 => ⟨S32768x1, .f32⟩
  | 116 => ⟨S_, .f32⟩
  | 117 => ⟨S4096x1024, .f32⟩
  | 118 => ⟨S32768x1024, .f32⟩
  | 119 => ⟨S32768x1024, .f32⟩
  | 120 => ⟨S_, .i32⟩
  | 121 => ⟨S32768, .i32⟩
  | 122 => ⟨S32768, .i1⟩
  | 123 => ⟨S_, .i32⟩
  | 124 => ⟨S32768, .i32⟩
  | 125 => ⟨S32768, .i32⟩
  | 126 => ⟨S32768, .i32⟩
  | 127 => ⟨S32768x1, .i32⟩
  | _ => ⟨S4096x1024, .f32⟩

abbrev hbmTy0_1 (i : Nat) : BufTy := match i % 128 with
  | 0 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_call1_call0_c : Ref sig .tc := ⟨.hbm, 16, rfl⟩
abbrev main_call1_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_call2_v0 : Ref sig .tc := ⟨.hbm, 43, rfl⟩
abbrev main_call2_v1 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_10 : Ref sig .tc := ⟨.hbm, 70, rfl⟩
abbrev main_v41 : Ref sig .tc := ⟨.hbm, 71, rfl⟩
abbrev main_v42 : Ref sig .tc := ⟨.hbm, 72, rfl⟩
abbrev main_c_11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call4_v0 : Ref sig .tc := ⟨.hbm, 84, rfl⟩
abbrev main_call4_v1 : Ref sig .tc := ⟨.hbm, 85, rfl⟩
abbrev main_call4_cst : Ref sig .tc := ⟨.hbm, 86, rfl⟩
abbrev main_call4_v2 : Ref sig .tc := ⟨.hbm, 87, rfl⟩
abbrev main_call4_v3 : Ref sig .tc := ⟨.hbm, 88, rfl⟩
abbrev main_call4_cst_0 : Ref sig .tc := ⟨.hbm, 89, rfl⟩
abbrev main_call4_v4 : Ref sig .tc := ⟨.hbm, 90, rfl⟩
abbrev main_call4_v5 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_c_12 : Ref sig .tc := ⟨.hbm, 95, rfl⟩
abbrev main_v56 : Ref sig .tc := ⟨.hbm, 96, rfl⟩
abbrev main_v57 : Ref sig .tc := ⟨.hbm, 97, rfl⟩
abbrev main_c_13 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_c_14 : Ref sig .tc := ⟨.hbm, 102, rfl⟩
abbrev main_v61 : Ref sig .tc := ⟨.hbm, 103, rfl⟩
abbrev main_v62 : Ref sig .tc := ⟨.hbm, 104, rfl⟩
abbrev main_c_15 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_16 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_17 : Ref sig .tc := ⟨.hbm, 120, rfl⟩
abbrev main_v76 : Ref sig .tc := ⟨.hbm, 121, rfl⟩
abbrev main_v77 : Ref sig .tc := ⟨.hbm, 122, rfl⟩
abbrev main_c_18 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩

abbrev nD : Nat := 1
abbrev τ : Topo := Topo.v7x

variable {F : FTy → Type} [FloatOps F]

class Facts₀ : Prop where
  shapeCasts_S4096x8_S32768 : S4096x8.ShapeCasts S32768
  bcast_S4096_S4096x8_0 : S4096.BroadcastsInDim S4096x8 (![0] : Fin 1 → Fin S4096x8.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  bcast_S1x64_S32768x64_0_1 : S1x64.BroadcastsInDim S32768x64 (![0, 1] : Fin 2 → Fin S32768x64.rank)
  natLt_1_32 : 1 < 32
  bcast_S_S_ : S_.BroadcastsInDim S_ (![] : Fin 0 → Fin S_.rank)
  reduceWindows_S32768x64_S32768x64_w32768s1p32767_0_w1s1p0_0 : S32768x64.ReduceWindows (![32768, 1] : Fin 2 → Nat) ![1, 1] ![32767, 0] ![0, 0] S32768x64
  h_S_ : 0 < S_.numel
  bcast_S_S32768 : S_.BroadcastsInDim S32768 (![] : Fin 0 → Fin S32768.rank)
  concatenates_S32768x1_S32768x1_S32768x2_d1 : Shape.Concatenates [S32768x1, S32768x1] S32768x2 1
  bcast_S32768x1_S32768x1024_0_1 : S32768x1.BroadcastsInDim S32768x1024 (![0, 1] : Fin 2 → Fin S32768x1024.rank)
  bcast_S_S32768x1024 : S_.BroadcastsInDim S32768x1024 (![] : Fin 0 → Fin S32768x1024.rank)
  bcast_S_S64x1024x1024 : S_.BroadcastsInDim S64x1024x1024 (![] : Fin 0 → Fin S64x1024x1024.rank)
  slices_S64x1024x1024_S64x1024x512_0_0_0 : S64x1024x1024.Slices ![0, 0, 0] S64x1024x512
  slices_S64x1024x1024_S64x1024x512_0_0_512 : S64x1024x1024.Slices ![0, 0, 512] S64x1024x512
  bcast_S_S64x1024x512 : S_.BroadcastsInDim S64x1024x512 (![] : Fin 0 → Fin S64x1024x512.rank)
  bcast_S_S4096x1024 : S_.BroadcastsInDim S4096x1024 (![] : Fin 0 → Fin S4096x1024.rank)
  gather_S32768x64_S32768x2_S32768_n_01_n_n_01_1_11_wf : GatherDims.WF S32768x64 S32768x2 S32768 [] [0, 1] [] [0, 1] [] 1 ![1, 1]
  gather_S4096x1024_S32768x1_S32768x1024_1_0_n_n_0_1_11024_wf : GatherDims.WF S4096x1024 S32768x1 S32768x1024 [1] [0] [] [0] [] 1 ![1, 1024]
  scatter_S64x1024x1024_S32768x2_S32768x1024_1_01_01_1_wf : ScatterDims.WF S64x1024x1024 S32768x2 S32768x1024 [1] [0, 1] [0, 1] 1
  dot_S64x1024x1024_S64x1024x1024_S64x1024x1024_2_2_1_1_0_0_wf : DotDims.WF S64x1024x1024 S64x1024x1024 S64x1024x1024 [2] [2] [1] [1] [0] [0]
  dot_S64x1024x512_S64x1024x512_S64x1024x1024_2_2_1_1_0_0_wf : DotDims.WF S64x1024x512 S64x1024x512 S64x1024x1024 [2] [2] [1] [1] [0] [0]
  gather_S64x1024x1024_S32768x2_S32768x1024_1_01_n_n_01_1_111024_wf : GatherDims.WF S64x1024x1024 S32768x2 S32768x1024 [1] [0, 1] [] [0, 1] [] 1 ![1, 1, 1024]
  scatter_S4096x1024_S32768x1_S32768x1024_1_0_0_1_wf : ScatterDims.WF S4096x1024 S32768x1 S32768x1024 [1] [0] [0] 1

variable [Facts₀]

def gather_S32768x64_S32768x2_S32768_n_01_n_n_01_1_11 : GatherDims S32768x64 S32768x2 S32768 where
  offsetDims := []
  collapsedSliceDims := [0, 1]
  operandBatchingDims := []
  startIndicesBatchingDims := []
  startIndexMap := [0, 1]
  indexVectorDim := 1
  sliceSizes := ![1, 1]
  wf := gather_S32768x64_S32768x2_S32768_n_01_n_n_01_1_11_wf
def gather_S4096x1024_S32768x1_S32768x1024_1_0_n_n_0_1_11024 : GatherDims S4096x1024 S32768x1 S32768x1024 where
  offsetDims := [1]
  collapsedSliceDims := [0]
  operandBatchingDims := []
  startIndicesBatchingDims := []
  startIndexMap := [0]
  indexVectorDim := 1
  sliceSizes := ![1, 1024]
  wf := gather_S4096x1024_S32768x1_S32768x1024_1_0_n_n_0_1_11024_wf
def scatter_S64x1024x1024_S32768x2_S32768x1024_1_01_01_1 : ScatterDims S64x1024x1024 S32768x2 S32768x1024 where
  updateWindowDims := [1]
  insertedWindowDims := [0, 1]
  scatterDimsToOperandDims := [0, 1]
  indexVectorDim := 1
  wf := scatter_S64x1024x1024_S32768x2_S32768x1024_1_01_01_1_wf
def dot_S64x1024x1024_S64x1024x1024_S64x1024x1024_2_2_1_1_0_0 : DotDims S64x1024x1024 S64x1024x1024 S64x1024x1024 where
  lhsContracting := [2]
  rhsContracting := [2]
  lhsNonContracting := [1]
  rhsNonContracting := [1]
  lhsBatch := [0]
  rhsBatch := [0]
  wf := dot_S64x1024x1024_S64x1024x1024_S64x1024x1024_2_2_1_1_0_0_wf
def dot_S64x1024x512_S64x1024x512_S64x1024x1024_2_2_1_1_0_0 : DotDims S64x1024x512 S64x1024x512 S64x1024x1024 where
  lhsContracting := [2]
  rhsContracting := [2]
  lhsNonContracting := [1]
  rhsNonContracting := [1]
  lhsBatch := [0]
  rhsBatch := [0]
  wf := dot_S64x1024x512_S64x1024x512_S64x1024x1024_2_2_1_1_0_0_wf
def gather_S64x1024x1024_S32768x2_S32768x1024_1_01_n_n_01_1_111024 : GatherDims S64x1024x1024 S32768x2 S32768x1024 where
  offsetDims := [1]
  collapsedSliceDims := [0, 1]
  operandBatchingDims := []
  startIndicesBatchingDims := []
  startIndexMap := [0, 1]
  indexVectorDim := 1
  sliceSizes := ![1, 1, 1024]
  wf := gather_S64x1024x1024_S32768x2_S32768x1024_1_01_n_n_01_1_111024_wf
def scatter_S4096x1024_S32768x1_S32768x1024_1_0_0_1 : ScatterDims S4096x1024 S32768x1 S32768x1024 where
  updateWindowDims := [1]
  insertedWindowDims := [0]
  scatterDimsToOperandDims := [0]
  indexVectorDim := 1
  wf := scatter_S4096x1024_S32768x1_S32768x1024_1_0_0_1_wf

class Facts : Prop extends Facts₀ where

variable [Facts]
-- ==== Proof.RefOps.lean ====
/- The host operations of the reference program, stretch by stretch: its @main's statements in order, a called
    function's statements in place of the call, cut into lists at the calls, at the window boundary and after
    the dispatch buffer, the two slices and the second product. Each list with the fact that its operations touch
    TensorCore references only. -/
import proofs.«120460_j17394617548826_1_alg».proof.Proof.Gen.ReferenceIdeal
import Idealize.ShloMosaic.Lib.StableHlo.Run

noncomputable section

namespace Cert.ReferenceIdeal.Ops

open Idealize.ShloMosaic Idealize.SL.Sem Cert.ReferenceIdeal Cert.ReferenceIdeal.Gen

variable {F : FTy → Type} [FloatOps F]

abbrev part0_ops0 : List (HloOp τ sig (Elt F)) :=
  [ StableHlo.reshape main_arg1 main_v0 rfl shapeCasts_S4096x8_S32768,
    StableHlo.reshape main_arg2 main_v1 rfl shapeCasts_S4096x8_S32768,
    StableHlo.nullary main_v2 (iotaInDim S4096 32 0),
    StableHlo.unary main_v2 main_v3 (broadcastInDim S4096x8 ![0] bcast_S4096_S4096x8_0 : (⟨S4096, .i32⟩ : BufTy).Contents (Elt F) → (⟨S4096x8, .i32⟩ : BufTy).Contents (Elt F)),
    StableHlo.reshape main_v3 main_v4 rfl shapeCasts_S4096x8_S32768 ]
theorem part0_ops0_sub : (part0_ops0 : List (HloOp τ sig (Elt F))).Forall fun op => op.bufs ⊆ StableHlo.tcRefs τ sig :=
  ⟨StableHlo.reshape_bufs_sub .., StableHlo.reshape_bufs_sub .., StableHlo.nullary_bufs_sub .., StableHlo.unary_bufs_sub .., StableHlo.reshape_bufs_sub ..⟩

abbrev part0_ops1 : List (HloOp τ sig (Elt F)) :=
  [ StableHlo.TRef.unary ((.of main_v0) : StableHlo.TRef sig ⟨S32768, .i32⟩) main_call0.v0 (broadcastInDim S32768x1 ![0] bcast_S32768_S32768x1_0),
    StableHlo.TRef.nullary main_call0.v1 (iotaInDim S1x64 32 1),
    StableHlo.TRef.unary main_call0.v0 main_call0.v2 (broadcastInDim S32768x64 ![0, 1] bcast_S32768x1_S32768x64_0_1),
    StableHlo.TRef.unary main_call0.v1 main_call0.v3 (broadcastInDim S32768x64 ![0, 1] bcast_S1x64_S32768x64_0_1),
    StableHlo.TRef.binary main_call0.v2 main_call0.v3 main_call0.v4 (cmpi .eq),
    StableHlo.TRef.unary main_call0.v4 main_call0.v5 (extui 32 · natLt_1_32) ]
theorem part0_ops1_sub : (part0_ops1 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩

abbrev part0_ops2 : List (HloOp τ sig (Elt F)) :=
  [ StableHlo.TRef.nullary main_call1.call0.c (constantI S_ 32 0#32),
    StableHlo.TRef.unary main_call1.call0.c main_call1.call0.v0 (broadcastInDim S_ ![] bcast_S_S_),
    StableHlo.TRef.binary ((.of main_v5) : StableHlo.TRef sig ⟨S32768x64, .i32⟩) main_call1.call0.v0 main_call1.call0.v1 (fun x v => Host.reduceWindow IntOp.addi ![32768, 1] ![1, 1] ![32767, 0] ![0, 0] x v reduceWindows_S32768x64_S32768x64_w32768s1p32767_0_w1s1p0_0 h_S_) ]
theorem part0_ops2_sub : (part0_ops2 : List (HloOp τ sig (Elt F))).Forall fun op => op.bufs ⊆ StableHlo.tcRefs τ sig :=
  ⟨StableHlo.nullary_bufs_sub .., StableHlo.unary_bufs_sub .., StableHlo.binary_bufs_sub ..⟩

abbrev part0_ops3 : List (HloOp τ sig (Elt F)) :=
  [ StableHlo.binary main_v6 main_v5 main_v7 (subi : (⟨S32768x64, .i32⟩ : BufTy).Contents (Elt F) → (⟨S32768x64, .i32⟩ : BufTy).Contents (Elt F) → (⟨S32768x64, .i32⟩ : BufTy).Contents (Elt F)),
    StableHlo.nullary main_v8 (iotaInDim S32768 32 0),
    StableHlo.nullary main_c (constantI S_ 32 0#32),
    StableHlo.unary main_c main_v9 (broadcastInDim S32768 ![] bcast_S_S32768 : (⟨S_, .i32⟩ : BufTy).Contents (Elt F) → (⟨S32768, .i32⟩ : BufTy).Contents (Elt F)),
    StableHlo.binary main_v8 main_v9 main_v10 (cmpi .slt : (⟨S32768, .i32⟩ : BufTy).Contents (Elt F) → (⟨S32768, .i32⟩ : BufTy).Contents (Elt F) → (⟨S32768, .i1⟩ : BufTy).Contents (Elt F)),
    StableHlo.nullary main_c_0 (constantI S_ 32 32768#32),
    StableHlo.unary main_c_0 main_v11 (broadcastInDim S32768 ![] bcast_S_S32768 : (⟨S_, .i32⟩ : BufTy).Contents (Elt F) → (⟨S32768, .i32⟩ : BufTy).Contents (Elt F)),
    StableHlo.binary main_v8 main_v11 main_v12 (addi : (⟨S32768, .i32⟩ : BufTy).Contents (Elt F) → (⟨S32768, .i32⟩ : BufTy).Contents (Elt F) → (⟨S32768, .i32⟩ : BufTy).Contents (Elt F)),
    StableHlo.ternary main_v10 main_v12 main_v8 main_v13 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_1 (constantI S_ 32 0#32),
    StableHlo.unary main_c_1 main_v14 (broadcastInDim S32768 ![] bcast_S_S32768 : (⟨S_, .i32⟩ : BufTy).Contents (Elt F) → (⟨S32768, .i32⟩ : BufTy).Contents (Elt F)),
    StableHlo.binary main_v0 main_v14 main_v15 (cmpi .slt : (⟨S32768, .i32⟩ : BufTy).Contents (Elt F) → (⟨S32768, .i32⟩ : BufTy).Contents (Elt F) → (⟨S32768, .i1⟩ : BufTy).Contents (Elt F)),
    StableHlo.nullary main_c_2 (constantI S_ 32 64#32),
    StableHlo.unary main_c_2 main_v16 (broadcastInDim S32768 ![] bcast_S_S32768 : (⟨S_, .i32⟩ : BufTy).Contents (Elt F) → (⟨S32768, .i32⟩ : BufTy).Contents (Elt F)),
    StableHlo.binary main_v0 main_v16 main_v17 (addi : (⟨S32768, .i32⟩ : BufTy).Contents (Elt F) → (⟨S32768, .i32⟩ : BufTy).Contents (Elt F) → (⟨S32768, .i32⟩ : BufTy).Contents (Elt F)),
    StableHlo.ternary main_v15 main_v17 main_v0 main_v18 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v13 main_v19 (broadcastInDim S32768x1 ![0] bcast_S32768_S32768x1_0 : (⟨S32768, .i32⟩ : BufTy).Contents (Elt F) → (⟨S32768x1, .i32⟩ : BufTy).Contents (Elt F)),
    StableHlo.unary main_v18 main_v20 (broadcastInDim S32768x1 ![0] bcast_S32768_S32768x1_0 : (⟨S32768, .i32⟩ : BufTy).Contents (Elt F) → (⟨S32768x1, .i32⟩ : BufTy).Contents (Elt F)),
    StableHlo.binary main_v19 main_v20 main_v21 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v7 main_v21 main_v22 ((fun x i => Host.gather gather_S32768x64_S32768x2_S32768_n_01_n_n_01_1_11 x i) : (⟨S32768x64, .i32⟩ : BufTy).Contents (Elt F) → (⟨S32768x2, .i32⟩ : BufTy).Contents (Elt F) → (⟨S32768, .i32⟩ : BufTy).Contents (Elt F)),
    StableHlo.nullary main_c_3 (constantI S_ 32 1024#32),
    StableHlo.unary main_c_3 main_v23 (broadcastInDim S32768 ![] bcast_S_S32768 : (⟨S_, .i32⟩ : BufTy).Contents (Elt F) → (⟨S32768, .i32⟩ : BufTy).Contents (Elt F)),
    StableHlo.binary main_v22 main_v23 main_v24 (cmpi .slt : (⟨S32768, .i32⟩ : BufTy).Contents (Elt F) → (⟨S32768, .i32⟩ : BufTy).Contents (Elt F) → (⟨S32768, .i1⟩ : BufTy).Contents (Elt F)),
    StableHlo.nullary main_c_4 (constantI S_ 32 1023#32) ]
theorem part0_ops3_sub : (part0_ops3 : List (HloOp τ sig (Elt F))).Forall fun op => op.bufs ⊆ StableHlo.tcRefs τ sig :=
  ⟨StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub ..⟩

abbrev part0_ops4 : List (HloOp τ sig (Elt F)) :=
  [ StableHlo.TRef.unary ((.of main_c_4) : StableHlo.TRef sig ⟨S_, .i32⟩) main_call2.v0 id,
    StableHlo.TRef.unary main_call2.v0 main_call2.v1 (broadcastInDim S32768 ![] bcast_S_S32768),
    StableHlo.TRef.ternary ((.of main_v24) : StableHlo.TRef sig ⟨S32768, .i1⟩) ((.of main_v22) : StableHlo.TRef sig ⟨S32768, .i32⟩) main_call2.v1 main_call2.v2 select ]
theorem part0_ops4_sub : (part0_ops4 : List (HloOp τ sig (Elt F))).Forall fun op => op.bufs ⊆ StableHlo.tcRefs τ sig :=
  ⟨StableHlo.unary_bufs_sub .., StableHlo.unary_bufs_sub .., StableHlo.ternary_bufs_sub ..⟩

abbrev part0_ops5 : List (HloOp τ sig (Elt F)) :=
  [ StableHlo.unary main_v24 main_v26 (broadcastInDim S32768x1 ![0] bcast_S32768_S32768x1_0 : (⟨S32768, .i1⟩ : BufTy).Contents (Elt F) → (⟨S32768x1, .i1⟩ : BufTy).Contents (Elt F)),
    StableHlo.nullary main_c_5 (constantI S_ 32 0#32),
    StableHlo.unary main_c_5 main_v27 (broadcastInDim S32768 ![] bcast_S_S32768 : (⟨S_, .i32⟩ : BufTy).Contents (Elt F) → (⟨S32768, .i32⟩ : BufTy).Contents (Elt F)),
    StableHlo.binary main_v4 main_v27 main_v28 (cmpi .slt : (⟨S32768, .i32⟩ : BufTy).Contents (Elt F) → (⟨S32768, .i32⟩ : BufTy).Contents (Elt F) → (⟨S32768, .i1⟩ : BufTy).Contents (Elt F)),
    StableHlo.nullary main_c_6 (constantI S_ 32 4096#32),
    StableHlo.unary main_c_6 main_v29 (broadcastInDim S32768 ![] bcast_S_S32768 : (⟨S_, .i32⟩ : BufTy).Contents (Elt F) → (⟨S32768, .i32⟩ : BufTy).Contents (Elt F)),
    StableHlo.binary main_v4 main_v29 main_v30 (addi : (⟨S32768, .i32⟩ : BufTy).Contents (Elt F) → (⟨S32768, .i32⟩ : BufTy).Contents (Elt F) → (⟨S32768, .i32⟩ : BufTy).Contents (Elt F)),
    StableHlo.ternary main_v28 main_v30 main_v4 main_v31 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v31 main_v32 (broadcastInDim S32768x1 ![0] bcast_S32768_S32768x1_0 : (⟨S32768, .i32⟩ : BufTy).Contents (Elt F) → (⟨S32768x1, .i32⟩ : BufTy).Contents (Elt F)),
    StableHlo.binary main_arg0 main_v32 main_v33 ((fun x i => Host.gather gather_S4096x1024_S32768x1_S32768x1024_1_0_n_n_0_1_11024 x i) : (⟨S4096x1024, .f32⟩ : BufTy).Contents (Elt F) → (⟨S32768x1, .i32⟩ : BufTy).Contents (Elt F) → (⟨S32768x1024, .f32⟩ : BufTy).Contents (Elt F)),
    StableHlo.nullary main_cst (constant S_ .f32 0x00000000#32) ]
theorem part0_ops5_sub : (part0_ops5 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩

abbrev part0_ops6 : List (HloOp τ sig (Elt F)) :=
  [ StableHlo.TRef.unary ((.of main_cst) : StableHlo.TRef sig ⟨S_, .f32⟩) main_call3.v0 id,
    StableHlo.TRef.unary ((.of main_v26) : StableHlo.TRef sig ⟨S32768x1, .i1⟩) main_call3.v1 (broadcastInDim S32768x1024 ![0, 1] bcast_S32768x1_S32768x1024_0_1),
    StableHlo.TRef.unary main_call3.v0 main_call3.v2 (broadcastInDim S32768x1024 ![] bcast_S_S32768x1024),
    StableHlo.TRef.ternary main_call3.v1 ((.of main_v33) : StableHlo.TRef sig ⟨S32768x1024, .f32⟩) main_call3.v2 main_call3.v3 select ]
theorem part0_ops6_sub : (part0_ops6 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩

abbrev part0_ops7 : List (HloOp τ sig (Elt F)) :=
  [ StableHlo.nullary main_cst_7 (constant S_ .f32 0x00000000#32),
    StableHlo.unary main_cst_7 main_v35 (broadcastInDim S64x1024x1024 ![] bcast_S_S64x1024x1024 : (⟨S_, .f32⟩ : BufTy).Contents (Elt F) → (⟨S64x1024x1024, .f32⟩ : BufTy).Contents (Elt F)),
    StableHlo.nullary main_c_8 (constantI S_ 32 0#32),
    StableHlo.unary main_c_8 main_v36 (broadcastInDim S32768 ![] bcast_S_S32768 : (⟨S_, .i32⟩ : BufTy).Contents (Elt F) → (⟨S32768, .i32⟩ : BufTy).Contents (Elt F)),
    StableHlo.binary main_v0 main_v36 main_v37 (cmpi .slt : (⟨S32768, .i32⟩ : BufTy).Contents (Elt F) → (⟨S32768, .i32⟩ : BufTy).Contents (Elt F) → (⟨S32768, .i1⟩ : BufTy).Contents (Elt F)),
    StableHlo.nullary main_c_9 (constantI S_ 32 64#32),
    StableHlo.unary main_c_9 main_v38 (broadcastInDim S32768 ![] bcast_S_S32768 : (⟨S_, .i32⟩ : BufTy).Contents (Elt F) → (⟨S32768, .i32⟩ : BufTy).Contents (Elt F)),
    StableHlo.binary main_v0 main_v38 main_v39 (addi : (⟨S32768, .i32⟩ : BufTy).Contents (Elt F) → (⟨S32768, .i32⟩ : BufTy).Contents (Elt F) → (⟨S32768, .i32⟩ : BufTy).Contents (Elt F)),
    StableHlo.ternary main_v37 main_v39 main_v0 main_v40 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_10 (constantI S_ 32 0#32),
    StableHlo.unary main_c_10 main_v41 (broadcastInDim S32768 ![] bcast_S_S32768 : (⟨S_, .i32⟩ : BufTy).Contents (Elt F) → (⟨S32768, .i32⟩ : BufTy).Contents (Elt F)),
    StableHlo.binary main_v25 main_v41 main_v42 (cmpi .slt : (⟨S32768, .i32⟩ : BufTy).Contents (Elt F) → (⟨S32768, .i32⟩ : BufTy).Contents (Elt F) → (⟨S32768, .i1⟩ : BufTy).Contents (Elt F)),
    StableHlo.nullary main_c_11 (constantI S_ 32 1024#32),
    StableHlo.unary main_c_11 main_v43 (broadcastInDim S32768 ![] bcast_S_S32768 : (⟨S_, .i32⟩ : BufTy).Contents (Elt F) → (⟨S32768, .i32⟩ : BufTy).Contents (Elt F)),
    StableHlo.binary main_v25 main_v43 main_v44 (addi : (⟨S32768, .i32⟩ : BufTy).Contents (Elt F) → (⟨S32768, .i32⟩ : BufTy).Contents (Elt F) → (⟨S32768, .i32⟩ : BufTy).Contents (Elt F)),
    StableHlo.ternary main_v42 main_v44 main_v25 main_v45 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) ]
theorem part0_ops7_sub : (part0_ops7 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

abbrev part1_ops0 : List (HloOp τ sig (Elt F)) :=
  [ StableHlo.unary main_v40 main_v46 (broadcastInDim S32768x1 ![0] bcast_S32768_S32768x1_0 : (⟨S32768, .i32⟩ : BufTy).Contents (Elt F) → (⟨S32768x1, .i32⟩ : BufTy).Contents (Elt F)),
    StableHlo.unary main_v45 main_v47 (broadcastInDim S32768x1 ![0] bcast_S32768_S32768x1_0 : (⟨S32768, .i32⟩ : BufTy).Contents (Elt F) → (⟨S32768x1, .i32⟩ : BufTy).Contents (Elt F)),
    StableHlo.binary main_v46 main_v47 main_v48 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.ternary main_v35 main_v48 main_v34 main_v49 ((fun x i u => Host.scatterAdd scatter_S64x1024x1024_S32768x2_S32768x1024_1_01_01_1 x i u) : (⟨S64x1024x1024, .f32⟩ : BufTy).Contents (Elt F) → (⟨S32768x2, .i32⟩ : BufTy).Contents (Elt F) → (⟨S32768x1024, .f32⟩ : BufTy).Contents (Elt F) → (⟨S64x1024x1024, .f32⟩ : BufTy).Contents (Elt F)) ]
theorem part1_ops0_sub : (part1_ops0 : List (HloOp τ sig (Elt F))).Forall fun op => op.bufs ⊆ StableHlo.tcRefs τ sig :=
  ⟨StableHlo.unary_bufs_sub .., StableHlo.unary_bufs_sub .., StableHlo.binary_bufs_sub .., StableHlo.ternary_bufs_sub ..⟩

abbrev part1_ops1 : List (HloOp τ sig (Elt F)) :=
  [ StableHlo.binary main_v49 main_arg3 main_v50 ((fun l r => Host.dotGeneral dot_S64x1024x1024_S64x1024x1024_S64x1024x1024_2_2_1_1_0_0 none l r) : (⟨S64x1024x1024, .f32⟩ : BufTy).Contents (Elt F) → (⟨S64x1024x1024, .f32⟩ : BufTy).Contents (Elt F) → (⟨S64x1024x1024, .f32⟩ : BufTy).Contents (Elt F)),
    StableHlo.unary main_v50 main_v51 ((extractStridedSlice S64x1024x512 ![0, 0, 0] · slices_S64x1024x1024_S64x1024x512_0_0_0) : (⟨S64x1024x1024, .f32⟩ : BufTy).Contents (Elt F) → (⟨S64x1024x512, .f32⟩ : BufTy).Contents (Elt F)),
    StableHlo.unary main_v50 main_v52 ((extractStridedSlice S64x1024x512 ![0, 0, 512] · slices_S64x1024x1024_S64x1024x512_0_0_512) : (⟨S64x1024x1024, .f32⟩ : BufTy).Contents (Elt F) → (⟨S64x1024x512, .f32⟩ : BufTy).Contents (Elt F)) ]
theorem part1_ops1_sub : (part1_ops1 : List (HloOp τ sig (Elt F))).Forall fun op => op.bufs ⊆ StableHlo.tcRefs τ sig :=
  ⟨StableHlo.binary_bufs_sub .., StableHlo.unary_bufs_sub .., StableHlo.unary_bufs_sub ..⟩

abbrev part1_ops2 : List (HloOp τ sig (Elt F)) :=
  [ StableHlo.TRef.unary ((.of main_v51) : StableHlo.TRef sig ⟨S64x1024x512, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S64x1024x512 ![] bcast_S_S64x1024x512),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S64x1024x512 ![] bcast_S_S64x1024x512),
    StableHlo.TRef.binary main_call4.v4 main_call4.v3 main_call4.v5 Host.divf,
    StableHlo.TRef.binary ((.of main_v51) : StableHlo.TRef sig ⟨S64x1024x512, .f32⟩) main_call4.v5 main_call4.v6 mulf ]
theorem part1_ops2_sub : (part1_ops2 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩

abbrev part1_ops3 : List (HloOp τ sig (Elt F)) :=
  [ StableHlo.binary main_v53 main_v52 main_v54 (mulf : (⟨S64x1024x512, .f32⟩ : BufTy).Contents (Elt F) → (⟨S64x1024x512, .f32⟩ : BufTy).Contents (Elt F) → (⟨S64x1024x512, .f32⟩ : BufTy).Contents (Elt F)),
    StableHlo.binary main_v54 main_arg4 main_v55 ((fun l r => Host.dotGeneral dot_S64x1024x512_S64x1024x512_S64x1024x1024_2_2_1_1_0_0 none l r) : (⟨S64x1024x512, .f32⟩ : BufTy).Contents (Elt F) → (⟨S64x1024x512, .f32⟩ : BufTy).Contents (Elt F) → (⟨S64x1024x1024, .f32⟩ : BufTy).Contents (Elt F)) ]
theorem part1_ops3_sub : (part1_ops3 : List (HloOp τ sig (Elt F))).Forall fun op => op.bufs ⊆ StableHlo.tcRefs τ sig :=
  ⟨StableHlo.binary_bufs_sub .., StableHlo.binary_bufs_sub ..⟩

abbrev part1_ops4 : List (HloOp τ sig (Elt F)) :=
  [ StableHlo.nullary main_c_12 (constantI S_ 32 0#32),
    StableHlo.unary main_c_12 main_v56 (broadcastInDim S32768 ![] bcast_S_S32768 : (⟨S_, .i32⟩ : BufTy).Contents (Elt F) → (⟨S32768, .i32⟩ : BufTy).Contents (Elt F)),
    StableHlo.binary main_v0 main_v56 main_v57 (cmpi .slt : (⟨S32768, .i32⟩ : BufTy).Contents (Elt F) → (⟨S32768, .i32⟩ : BufTy).Contents (Elt F) → (⟨S32768, .i1⟩ : BufTy).Contents (Elt F)),
    StableHlo.nullary main_c_13 (constantI S_ 32 64#32),
    StableHlo.unary main_c_13 main_v58 (broadcastInDim S32768 ![] bcast_S_S32768 : (⟨S_, .i32⟩ : BufTy).Contents (Elt F) → (⟨S32768, .i32⟩ : BufTy).Contents (Elt F)),
    StableHlo.binary main_v0 main_v58 main_v59 (addi : (⟨S32768, .i32⟩ : BufTy).Contents (Elt F) → (⟨S32768, .i32⟩ : BufTy).Contents (Elt F) → (⟨S32768, .i32⟩ : BufTy).Contents (Elt F)),
    StableHlo.ternary main_v57 main_v59 main_v0 main_v60 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_14 (constantI S_ 32 0#32),
    StableHlo.unary main_c_14 main_v61 (broadcastInDim S32768 ![] bcast_S_S32768 : (⟨S_, .i32⟩ : BufTy).Contents (Elt F) → (⟨S32768, .i32⟩ : BufTy).Contents (Elt F)),
    StableHlo.binary main_v25 main_v61 main_v62 (cmpi .slt : (⟨S32768, .i32⟩ : BufTy).Contents (Elt F) → (⟨S32768, .i32⟩ : BufTy).Contents (Elt F) → (⟨S32768, .i1⟩ : BufTy).Contents (Elt F)),
    StableHlo.nullary main_c_15 (constantI S_ 32 1024#32),
    StableHlo.unary main_c_15 main_v63 (broadcastInDim S32768 ![] bcast_S_S32768 : (⟨S_, .i32⟩ : BufTy).Contents (Elt F) → (⟨S32768, .i32⟩ : BufTy).Contents (Elt F)),
    StableHlo.binary main_v25 main_v63 main_v64 (addi : (⟨S32768, .i32⟩ : BufTy).Contents (Elt F) → (⟨S32768, .i32⟩ : BufTy).Contents (Elt F) → (⟨S32768, .i32⟩ : BufTy).Contents (Elt F)),
    StableHlo.ternary main_v62 main_v64 main_v25 main_v65 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v60 main_v66 (broadcastInDim S32768x1 ![0] bcast_S32768_S32768x1_0 : (⟨S32768, .i32⟩ : BufTy).Contents (Elt F) → (⟨S32768x1, .i32⟩ : BufTy).Contents (Elt F)),
    StableHlo.unary main_v65 main_v67 (broadcastInDim S32768x1 ![0] bcast_S32768_S32768x1_0 : (⟨S32768, .i32⟩ : BufTy).Contents (Elt F) → (⟨S32768x1, .i32⟩ : BufTy).Contents (Elt F)),
    StableHlo.binary main_v66 main_v67 main_v68 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v55 main_v68 main_v69 ((fun x i => Host.gather gather_S64x1024x1024_S32768x2_S32768x1024_1_01_n_n_01_1_111024 x i) : (⟨S64x1024x1024, .f32⟩ : BufTy).Contents (Elt F) → (⟨S32768x2, .i32⟩ : BufTy).Contents (Elt F) → (⟨S32768x1024, .f32⟩ : BufTy).Contents (Elt F)),
    StableHlo.unary main_v24 main_v70 (uitofp .f32 : (⟨S32768, .i1⟩ : BufTy).Contents (Elt F) → (⟨S32768, .f32⟩ : BufTy).Contents (Elt F)),
    StableHlo.binary main_v1 main_v70 main_v71 (mulf : (⟨S32768, .f32⟩ : BufTy).Contents (Elt F) → (⟨S32768, .f32⟩ : BufTy).Contents (Elt F) → (⟨S32768, .f32⟩ : BufTy).Contents (Elt F)),
    StableHlo.unary main_v71 main_v72 (broadcastInDim S32768x1 ![0] bcast_S32768_S32768x1_0 : (⟨S32768, .f32⟩ : BufTy).Contents (Elt F) → (⟨S32768x1, .f32⟩ : BufTy).Contents (Elt F)),
    StableHlo.nullary main_cst_16 (constant S_ .f32 0x00000000#32),
    StableHlo.unary main_cst_16 main_v73 (broadcastInDim S4096x1024 ![] bcast_S_S4096x1024 : (⟨S_, .f32⟩ : BufTy).Contents (Elt F) → (⟨S4096x1024, .f32⟩ : BufTy).Contents (Elt F)),
    StableHlo.unary main_v72 main_v74 (broadcastInDim S32768x1024 ![0, 1] bcast_S32768x1_S32768x1024_0_1 : (⟨S32768x1, .f32⟩ : BufTy).Contents (Elt F) → (⟨S32768x1024, .f32⟩ : BufTy).Contents (Elt F)),
    StableHlo.binary main_v69 main_v74 main_v75 (mulf : (⟨S32768x1024, .f32⟩ : BufTy).Contents (Elt F) → (⟨S32768x1024, .f32⟩ : BufTy).Contents (Elt F) → (⟨S32768x1024, .f32⟩ : BufTy).Contents (Elt F)),
    StableHlo.nullary main_c_17 (constantI S_ 32 0#32),
    StableHlo.unary main_c_17 main_v76 (broadcastInDim S32768 ![] bcast_S_S32768 : (⟨S_, .i32⟩ : BufTy).Contents (Elt F) → (⟨S32768, .i32⟩ : BufTy).Contents (Elt F)),
    StableHlo.binary main_v4 main_v76 main_v77 (cmpi .slt : (⟨S32768, .i32⟩ : BufTy).Contents (Elt F) → (⟨S32768, .i32⟩ : BufTy).Contents (Elt F) → (⟨S32768, .i1⟩ : BufTy).Contents (Elt F)),
    StableHlo.nullary main_c_18 (constantI S_ 32 4096#32),
    StableHlo.unary main_c_18 main_v78 (broadcastInDim S32768 ![] bcast_S_S32768 : (⟨S_, .i32⟩ : BufTy).Contents (Elt F) → (⟨S32768, .i32⟩ : BufTy).Contents (Elt F)),
    StableHlo.binary main_v4 main_v78 main_v79 (addi : (⟨S32768, .i32⟩ : BufTy).Contents (Elt F) → (⟨S32768, .i32⟩ : BufTy).Contents (Elt F) → (⟨S32768, .i32⟩ : BufTy).Contents (Elt F)),
    StableHlo.ternary main_v77 main_v79 main_v4 main_v80 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v80 main_v81 (broadcastInDim S32768x1 ![0] bcast_S32768_S32768x1_0 : (⟨S32768, .i32⟩ : BufTy).Contents (Elt F) → (⟨S32768x1, .i32⟩ : BufTy).Contents (Elt F)),
    StableHlo.ternary main_v73 main_v81 main_v75 main_v82 ((fun x i u => Host.scatterAdd scatter_S4096x1024_S32768x1_S32768x1024_1_0_0_1 x i u) : (⟨S4096x1024, .f32⟩ : BufTy).Contents (Elt F) → (⟨S32768x1, .i32⟩ : BufTy).Contents (Elt F) → (⟨S32768x1024, .f32⟩ : BufTy).Contents (Elt F) → (⟨S4096x1024, .f32⟩ : BufTy).Contents (Elt F)) ]
theorem part1_ops4_sub : (part1_ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩

end Cert.ReferenceIdeal.Ops

end
-- ==== Proof.RefRun.lean ====
/-
  The reference program's run. Its @main is a straight line of host operations once the functions it calls are read
  in place of the calls: thirteen stretches (Proof/RefOps.lean) — the routing and the dispatch buffer (`preI`), the two
  grouped products around the gated activation (`midI`), and the weighted combine (`part1_ops4`). Every weakly fair
  execution terminates and leaves each buffer at the fold of the operations' results over the launch contents.
-/
import proofs.«120460_j17394617548826_1_alg».proof.Proof.RefOps
import Idealize.ShloMosaic.Lib.Pipeline.Regions
import Idealize.ShloMosaic.Lib.Pipeline.Frame

noncomputable section

namespace Cert.ReferenceIdeal.Ops

open Idealize.ShloMosaic Idealize.SL.Sem Idealize.ShloMosaic.StableHlo Cert.ReferenceIdeal Cert.ReferenceIdeal.Gen

variable {F : FTy → Type} [FloatOps F]

/-- The stretches up to and including the scatter-add that fills the dispatch buffer. -/
abbrev preI : List (List (HloOp τ sig (Elt F))) :=
  [part0_ops0, part0_ops1, part0_ops2, part0_ops3, part0_ops4, part0_ops5, part0_ops6, part0_ops7, part1_ops0]
/-- The expert layer: the first grouped product and its two halves, the gated activation, the second grouped product. -/
abbrev midI : List (List (HloOp τ sig (Elt F))) := [part1_ops1, part1_ops2, part1_ops3]
/-- All of @main. -/
abbrev opss : List (List (HloOp τ sig (Elt F))) :=
  [part0_ops0, part0_ops1, part0_ops2, part0_ops3, part0_ops4, part0_ops5, part0_ops6, part0_ops7, part1_ops0,
    part1_ops1, part1_ops2, part1_ops3, part1_ops4]

theorem part0_chain (c : Dev nD) : main_part0 (F := F) c = (Pipeline.chainK
    [seq part0_ops0, seq part0_ops1, seq part0_ops2, seq part0_ops3, seq part0_ops4, seq part0_ops5, seq part0_ops6]
    (seq part0_ops7) : Prog (TpuEff nD τ sig (Elt F) (Pipeline.Sig Λ₀ (Fin 0) fun p => (pcfgs (F := F) p).Adm) .tc) PUnit) := by
  chain_rfl

theorem part1_chain (c : Dev nD) : main_part1 (F := F) c = (Pipeline.chain
    [seq part1_ops0, seq part1_ops1, seq part1_ops2, seq part1_ops3, seq part1_ops4]
    : Prog (TpuEff nD τ sig (Elt F) (Pipeline.Sig Λ₀ (Fin 0) fun p => (pcfgs (F := F) p).Adm) .tc) PUnit) := by
  chain_rfl

/-- @main is the straight line of all its stretches' operations. -/
theorem main_eq (c : Dev nD) : main (F := F) c = seq (opss (F := F)).flatten := by
  show (main_part0 (F := F) c >>= fun _ => main_part1 (F := F) c) = _
  rewrite [part1_chain, part0_chain, Pipeline.chainK_bind_chain]
  simp only [List.cons_append, List.nil_append, List.flatten_cons, List.flatten_nil, Pipeline.chain_cons,
    Pipeline.chain_nil, seq_append]
  rfl

theorem scopedRefs_eq : (Finset.univ.filter fun b : Ref sig .tc => b.isScoped) = ∅ := by decide
theorem scopedSems_eq : (Finset.univ.filter fun sm : SemLoc sig => sm.isScoped .tc) = ∅ := by decide

/-- A property of every element of every list holds of every element of their concatenation. -/
theorem forall_flatten {α : Type} {p : α → Prop} (L : List (List α)) (h : L.Forall fun l => l.Forall p) :
    L.flatten.Forall p := by
  rw [List.forall_iff_forall_mem] at h ⊢
  intro x hx
  obtain ⟨l, hl, hxl⟩ := List.mem_flatten.1 hx
  exact (List.forall_iff_forall_mem.1 (h l hl)) x hxl

theorem opss_sub : (opss (F := F)).Forall fun l => l.Forall fun op => op.bufs ⊆ tcRefs τ sig := by
  simp only [List.Forall]
  exact ⟨part0_ops0_sub, part0_ops1_sub, part0_ops2_sub, part0_ops3_sub, part0_ops4_sub, part0_ops5_sub, part0_ops6_sub,
    part0_ops7_sub, part1_ops0_sub, part1_ops1_sub, part1_ops2_sub, part1_ops3_sub, part1_ops4_sub⟩

theorem part0_ops0_fresh : (part0_ops0 : List (HloOp τ sig (Elt F))).Forall fun op => op.fresh = ∅ := by
  simp only [List.Forall]; repeat' constructor
theorem part0_ops1_fresh : (part0_ops1 : List (HloOp τ sig (Elt F))).Forall fun op => op.fresh = ∅ := by
  simp only [List.Forall]; repeat' constructor
theorem part0_ops2_fresh : (part0_ops2 : List (HloOp τ sig (Elt F))).Forall fun op => op.fresh = ∅ := by
  simp only [List.Forall]; repeat' constructor
theorem part0_ops3_fresh : (part0_ops3 : List (HloOp τ sig (Elt F))).Forall fun op => op.fresh = ∅ := by
  simp only [List.Forall]; repeat' constructor
theorem part0_ops4_fresh : (part0_ops4 : List (HloOp τ sig (Elt F))).Forall fun op => op.fresh = ∅ := by
  simp only [List.Forall]; repeat' constructor
theorem part0_ops5_fresh : (part0_ops5 : List (HloOp τ sig (Elt F))).Forall fun op => op.fresh = ∅ := by
  simp only [List.Forall]; repeat' constructor
theorem part0_ops6_fresh : (part0_ops6 : List (HloOp τ sig (Elt F))).Forall fun op => op.fresh = ∅ := by
  simp only [List.Forall]; repeat' constructor
theorem part0_ops7_fresh : (part0_ops7 : List (HloOp τ sig (Elt F))).Forall fun op => op.fresh = ∅ := by
  simp only [List.Forall]; repeat' constructor
theorem part1_ops0_fresh : (part1_ops0 : List (HloOp τ sig (Elt F))).Forall fun op => op.fresh = ∅ := by
  simp only [List.Forall]; repeat' constructor
theorem part1_ops1_fresh : (part1_ops1 : List (HloOp τ sig (Elt F))).Forall fun op => op.fresh = ∅ := by
  simp only [List.Forall]; repeat' constructor
theorem part1_ops2_fresh : (part1_ops2 : List (HloOp τ sig (Elt F))).Forall fun op => op.fresh = ∅ := by
  simp only [List.Forall]; repeat' constructor
theorem part1_ops3_fresh : (part1_ops3 : List (HloOp τ sig (Elt F))).Forall fun op => op.fresh = ∅ := by
  simp only [List.Forall]; repeat' constructor
theorem part1_ops4_fresh : (part1_ops4 : List (HloOp τ sig (Elt F))).Forall fun op => op.fresh = ∅ := by
  simp only [List.Forall]; repeat' constructor

theorem opss_fresh : (opss (F := F)).Forall fun l => l.Forall fun op => op.fresh = ∅ := by
  simp only [List.Forall]
  exact ⟨part0_ops0_fresh, part0_ops1_fresh, part0_ops2_fresh, part0_ops3_fresh, part0_ops4_fresh, part0_ops5_fresh,
    part0_ops6_fresh, part0_ops7_fresh, part1_ops0_fresh, part1_ops1_fresh, part1_ops2_fresh, part1_ops3_fresh, part1_ops4_fresh⟩

/-- At the compiled mesh, from any memory with zero counters: every weakly fair execution of @main terminates, and
    every final state has each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (opss (F := F)).flatten (launchContents m c) (Proc.devRef .tc b) :=
  run_seq scopedRefs_eq scopedSems_eq defs main (fun _ => (opss (F := F)).flatten) main_eq
    (fun _ => forall_flatten _ opss_sub) m ρ
    (fun _ op h => (List.forall_iff_forall_mem.1 (forall_flatten _ opss_fresh)) op h)

end Cert.ReferenceIdeal.Ops

end
-- ==== Proof.Spec.lean ====
/-
  The expert layer as one function of whole arrays, on the extended reals.
  For one expert with token block b (1024 × 1024), gate/up weights w (1024 × 1024, rows 0–511 the gate rows and rows
  512–1023 the up rows) and down weights dw (1024 × 512):
    proj b w c j   = Σ_d b(c, d) · w(j, d)                                   (the block times the transpose of w)
    hidden b w c k = (g · logistic g) · u,  g = proj b w c k,  u = proj b w c (512 + k)      (the gated activation)
    layer b w dw c d = Σ_k hidden b w c k · dw(d, k)                          (times the transpose of dw)
  and `mlp` applies the layer expert by expert to arrays with a leading expert axis.
-/
import Idealize.ShloMosaic.Lib.ValueIdx
import Idealize.ShloMosaic.PureOps.Ideal

noncomputable section

namespace Cert.Spec

open Idealize.ShloMosaic Idealize.ShloMosaic.ValueIdx

/-- Gate row k of the 1024 gate/up rows. -/
abbrev lo (k : Fin 512) : Fin 1024 := ⟨k.val, by have := k.isLt; omega⟩
/-- Up row k: row 512 + k. -/
abbrev hi (k : Fin 512) : Fin 1024 := ⟨512 + k.val, by have := k.isLt; omega⟩

/-- Entry (c, j) of b · wᵀ. -/
def proj (b w : Fin 1024 → Fin 1024 → EReal) (c j : Fin 1024) : EReal := ∑ d : Fin 1024, b c d * w j d

/-- The gated activation silu(gate) · up at token c, hidden unit k. -/
def hidden (b w : Fin 1024 → Fin 1024 → EReal) (c : Fin 1024) (k : Fin 512) : EReal :=
  (proj b w c (lo k) * Ideal.logistic (proj b w c (lo k))) * proj b w c (hi k)

/-- One expert's output at token c, model coordinate d. -/
def layer (b w : Fin 1024 → Fin 1024 → EReal) (dw : Fin 1024 → Fin 512 → EReal) (c d : Fin 1024) : EReal :=
  ∑ k : Fin 512, hidden b w c k * dw d k

/-- The layer at expert e of arrays with a leading expert axis. -/
def mlpAt (B GU : (⟨3, ![64, 1024, 1024]⟩ : Shape).Idx → EReal) (DW : (⟨3, ![64, 1024, 512]⟩ : Shape).Idx → EReal)
    (e : Fin 64) (c d : Fin 1024) : EReal :=
  layer (fun c d => B (ix3 e c d)) (fun j d => GU (ix3 e j d)) (fun d k => DW (ix3 e d k)) c d

/-- The expert layer of all 64 experts as one array. -/
def mlp (B GU : (⟨3, ![64, 1024, 1024]⟩ : Shape).Idx → EReal) (DW : (⟨3, ![64, 1024, 512]⟩ : Shape).Idx → EReal) :
    (⟨3, ![64, 1024, 1024]⟩ : Shape).Idx → EReal := fun i => mlpAt B GU DW (i 0) (i 1) (i 2)

theorem mlp_ix3 (B GU : (⟨3, ![64, 1024, 1024]⟩ : Shape).Idx → EReal) (DW : (⟨3, ![64, 1024, 512]⟩ : Shape).Idx → EReal)
    (e : Fin 64) (c d : Fin 1024) : mlp B GU DW (ix3 e c d) = mlpAt B GU DW e c d := rfl

end Cert.Spec

end
-- ==== Proof.LibBatchDot.lean ====
/-
  The host's batched product of an [E, M, K] array with an [E, N, K] array — batch axis 0 on both sides, both operands
  contracted along their last axis — read at a batch e, a row a and a column b on the extended reals: the sum over the
  shared coordinate k of A(e, a, k) · B(e, b, k). Stated for a dimension record spelt by its six axis lists, whatever
  proof of well-formedness it carries. With it, a last-axis slice of a rank-3 array read at an index.
-/
import Idealize.ShloMosaic.Lib.Pipeline.Value
import Idealize.ShloMosaic.Lib.ValueIdx
import Idealize.ShloMosaic.PureOps.Ideal.Laws

noncomputable section

namespace Cert.LibBatchDot

open Idealize.ShloMosaic Idealize.ShloMosaic.ValueIdx

/-- An [E, M, K] array times, batch by batch, the transpose of an [E, N, K] array, at (e, a, b): Σ_k A(e, a, k) · B(e, b, k). -/
theorem dotGeneral_bnt_apply {E M N K : ℕ} {φ₁ φ₂ : FTy}
    (w : DotDims.WF (⟨3, ![E, M, K]⟩ : Shape) ⟨3, ![E, N, K]⟩ ⟨3, ![E, M, N]⟩ [2] [2] [1] [1] [0] [0])
    (prec : Option ContractPrecision)
    (A : FVec Ideal ⟨3, ![E, M, K]⟩ φ₁) (B : FVec Ideal ⟨3, ![E, N, K]⟩ φ₂) (e : Fin E) (a : Fin M) (b : Fin N) :
    Host.dotGeneral (⟨[2], [2], [1], [1], [0], [0], w⟩ : DotDims (⟨3, ![E, M, K]⟩ : Shape) ⟨3, ![E, N, K]⟩ ⟨3, ![E, M, N]⟩) prec A B
        (ix3 e a b)
      = ∑ k : Fin K, A (ix3 e a k) * B (ix3 e b k) := by
  refine (Ideal.dotGeneral_apply (⟨[2], [2], [1], [1], [0], [0], w⟩ : DotDims _ _ _) prec .single A B (ix3 e a b)).trans ?_
  rw [← Equiv.sum_comp (contrEquiv1 (⟨[2], [2], [1], [1], [0], [0], w⟩ : DotDims (⟨3, ![E, M, K]⟩ : Shape) ⟨3, ![E, N, K]⟩ ⟨3, ![E, M, N]⟩) K rfl rfl).symm]
  refine Finset.sum_congr rfl fun c _ => ?_
  have c2 := contrEquiv1_symm_val (⟨[2], [2], [1], [1], [0], [0], w⟩ : DotDims (⟨3, ![E, M, K]⟩ : Shape) ⟨3, ![E, N, K]⟩ ⟨3, ![E, M, N]⟩) K rfl rfl c
  have l2 : (⟨[2], [2], [1], [1], [0], [0], w⟩ : DotDims (⟨3, ![E, M, K]⟩ : Shape) ⟨3, ![E, N, K]⟩ ⟨3, ![E, M, N]⟩).lhsIdx (ix3 e a b) ((contrEquiv1 _ K rfl rfl).symm c) = ix3 e a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [2], [1], [1], [0], [0], w⟩ : DotDims (⟨3, ![E, M, K]⟩ : Shape) ⟨3, ![E, N, K]⟩ ⟨3, ![E, M, N]⟩).rhsIdx (ix3 e a b) ((contrEquiv1 _ K rfl rfl).symm c) = ix3 e b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c2
  rw [l2, r2]

/-- A rank-3 array cut along its last axis from `o` reads, at (a, b, j), the source at (a, b, k) with k = o + j. -/
theorem slice3_axis2_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibBatchDot

end
-- ==== Proof.RefMid.lean ====
/-
  The reference's expert layer. Its two grouped products are batched over the expert axis and contract both operands
  along their last axis, its gate and up halves are the last-axis slices 0–511 and 512–1023 of the first product, and
  its gated activation x · (1 / (1 + e⁻ˣ)) is x · logistic x on every extended real: so the six stretches' result is
  the expert layer `Spec.mlp` of the dispatch buffer and the two weight arrays.
-/
import proofs.«120460_j17394617548826_1_alg».proof.Proof.RefRun
import proofs.«120460_j17394617548826_1_alg».proof.Proof.Spec
import proofs.«120460_j17394617548826_1_alg».proof.Proof.LibBatchDot
import Idealize.ShloMosaic.Lib.IdealHost

noncomputable section

namespace Cert.ReferenceIdeal.Mid

open Idealize.ShloMosaic Idealize.ShloMosaic.ValueIdx Idealize.SL.Sem Idealize.ShloMosaic.StableHlo
open Cert.ReferenceIdeal Cert.ReferenceIdeal.Gen Cert.ReferenceIdeal.Ops

/-- The first grouped product at (e, c, j): expert e's token block times the transpose of its gate/up weights. -/
theorem first_apply (B GU : FVec Ideal S64x1024x1024 .f32) (e : Fin 64) (c j : Fin 1024) :
    Host.dotGeneral dot_S64x1024x1024_S64x1024x1024_S64x1024x1024_2_2_1_1_0_0 none B GU (ix3 e c j)
      = Spec.proj (fun c d => B (ix3 e c d)) (fun j d => GU (ix3 e j d)) c j :=
  Cert.LibBatchDot.dotGeneral_bnt_apply _ none B GU e c j

/-- The expert layer as the reference spells it is `Spec.mlp`. -/
theorem mid_term_eq (B GU : FVec Ideal S64x1024x1024 .f32) (DW : FVec Ideal S64x1024x512 .f32) :
    Host.dotGeneral dot_S64x1024x512_S64x1024x512_S64x1024x1024_2_2_1_1_0_0 none
      (mulf
        (mulf
          (extractStridedSlice S64x1024x512 ![0, 0, 0] (Host.dotGeneral dot_S64x1024x1024_S64x1024x1024_S64x1024x1024_2_2_1_1_0_0 none B GU) slices_S64x1024x1024_S64x1024x512_0_0_0)
          (Host.divf (broadcastInDim S64x1024x512 ![] bcast_S_S64x1024x512 (constant (F := Ideal) S_ .f32 0x3F800000#32))
            (addf (broadcastInDim S64x1024x512 ![] bcast_S_S64x1024x512 (constant (F := Ideal) S_ .f32 0x3F800000#32))
              (Host.exp (Host.negf
                (extractStridedSlice S64x1024x512 ![0, 0, 0] (Host.dotGeneral dot_S64x1024x1024_S64x1024x1024_S64x1024x1024_2_2_1_1_0_0 none B GU) slices_S64x1024x1024_S64x1024x512_0_0_0))))))
        (extractStridedSlice S64x1024x512 ![0, 0, 512] (Host.dotGeneral dot_S64x1024x1024_S64x1024x1024_S64x1024x1024_2_2_1_1_0_0 none B GU) slices_S64x1024x1024_S64x1024x512_0_0_512))
      DW
    = Spec.mlp B GU DW := by
  funext i
  obtain ⟨e, c, d, rfl⟩ : ∃ (e : Fin 64) (c d : Fin 1024), i = ix3 e c d := ⟨i 0, i 1, i 2, eq_ix3 i⟩
  rw [Spec.mlp_ix3]
  unfold Spec.mlpAt Spec.layer Spec.hidden
  refine (Cert.LibBatchDot.dotGeneral_bnt_apply _ none _ DW e c d).trans ?_
  refine Finset.sum_congr rfl fun k _ => ?_
  refine congrArg (· * DW (ix3 e d k)) ?_
  rw [mulf_apply, mulf_apply, hostDivf_apply, addf_apply, broadcastInDim_scalar_apply]
  show (_ * Ideal.div (Ideal.ofBits .f32 0x3F800000#32) (Ideal.ofBits .f32 0x3F800000#32 + Ideal.exp (-_))) * _ = _
  rw [Cert.LibBatchDot.slice3_axis2_apply 0 _ slices_S64x1024x1024_S64x1024x512_0_0_0 e c k (Spec.lo k) (by simp),
    Cert.LibBatchDot.slice3_axis2_apply 512 _ slices_S64x1024x1024_S64x1024x512_0_0_512 e c k (Spec.hi k) rfl,
    first_apply, first_apply, Ideal.ofBits_one_f32]
  rfl

/-- The three stretches of the expert layer leave `Spec.mlp` of the dispatch buffer and the weights in the second
    product's buffer. -/
theorem mid_eq (W : Valuation τ sig (Elt Ideal)) :
    after (midI (F := Ideal)).flatten W (Proc.devRef .tc main_v55)
      = Spec.mlp (W (Proc.devRef .tc main_v49)) (W (Proc.devRef .tc main_arg3)) (W (Proc.devRef .tc main_arg4)) := by
  simp only [midI, part1_ops1, part1_ops2, part1_ops3, List.flatten_cons, List.flatten_nil, List.append_nil,
    List.cons_append, List.nil_append]
  after_results
  exact mid_term_eq _ _ _

end Cert.ReferenceIdeal.Mid

end
-- ==== Proof.LibGramDot.lean ====
/-
  The matrix unit's product of an m×k block with the TRANSPOSE of an n×k block (both operands contracted along their
  second axis), into the zero accumulator, read at a row a and a column b on the extended reals: the sum over the shared
  coordinate c of A(a, c) · B(b, c) — one entry of a Gram-type matrix A·Bᵀ. Stated for a dimension record spelt by its six
  axis lists, whatever proof of well-formedness it carries.
-/
import Idealize.ShloMosaic.Lib.Pipeline.Value
import Idealize.ShloMosaic.Lib.ValueIdx
import Idealize.ShloMosaic.PureOps.Ideal.Laws

noncomputable section

namespace Cert.LibGramDot

open Idealize.ShloMosaic Idealize.ShloMosaic.ValueIdx

/-- An m×k block times the transpose of an n×k block, into the zero accumulator, at (a, b): Σ_c A(a, c) · B(b, c). -/
theorem matmul_nt_apply {m k n : ℕ} {φ₁ φ₂ : FTy}
    (w : DotDims.WF (⟨2, ![m, k]⟩ : Shape) ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (⟨[1], [1], [0], [0], [], [], w⟩ : DotDims (⟨2, ![m, k]⟩ : Shape) ⟨2, ![n, k]⟩ ⟨2, ![m, n]⟩) prec A B
        (constant ⟨2, ![m, n]⟩ .f32 0x00000000#32) (ix2 a b)
      = ∑ c : Fin k, A (ix2 a c) * B (ix2 b c) := by
  refine (Ideal.matmul_constant_zero_apply (⟨[1], [1], [0], [0], [], [], w⟩ : DotDims _ _ _) prec A B (ix2 a b)).trans ?_
  rw [← Equiv.sum_comp (contrEquiv1 (⟨[1], [1], [0], [0], [], [], w⟩ : DotDims (⟨2, ![m, k]⟩ : Shape) ⟨2, ![n, k]⟩ ⟨2, ![m, n]⟩) k rfl rfl).symm]
  refine Finset.sum_congr rfl fun c _ => ?_
  have c2 := contrEquiv1_symm_val (⟨[1], [1], [0], [0], [], [], w⟩ : DotDims (⟨2, ![m, k]⟩ : Shape) ⟨2, ![n, k]⟩ ⟨2, ![m, n]⟩) k rfl rfl c
  have l2 : (⟨[1], [1], [0], [0], [], [], w⟩ : DotDims (⟨2, ![m, k]⟩ : Shape) ⟨2, ![n, k]⟩ ⟨2, ![m, n]⟩).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![m, k]⟩ : Shape) ⟨2, ![n, k]⟩ ⟨2, ![m, n]⟩).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibGramDot

end
-- ==== Proof.KernelPay.lean ====
/-
  What the kernel body stores for one expert, read at a token c and a model coordinate d: the expert layer
  (Proof/Spec.lean `layer`) of the three loaded blocks. The body's two matrix products contract both operands along
  their second axis (block · weightsᵀ), its gate and up halves are column slices 0–511 and 512–1023 of the first
  product, and its rounding to bf16 before the second product is the identity on the extended reals.
-/
import proofs.«120460_j17394617548826_1_alg».proof.Proof.Gen.KernelIdeal.Skeleton
import proofs.«120460_j17394617548826_1_alg».proof.Proof.Spec
import proofs.«120460_j17394617548826_1_alg».proof.Proof.LibGramDot
import Idealize.ShloMosaic.Lib.ValueLayout

noncomputable section

namespace Cert.KernelIdeal.Pay

open Idealize.ShloMosaic Idealize.ShloMosaic.ValueIdx Cert.KernelIdeal Cert.KernelIdeal.Gen

/-- The first product at (c, j): the token block times the transpose of the gate/up block. -/
theorem first_apply (x0 x1 : FVec Ideal S1x1024x1024 .bf16) (c j : Fin 1024) :
    matmul dot_S1024x1024_S1024x1024_S1024x1024_1_1_0_0_n_n none
        (shapeCast S1024x1024 x0 shapeCasts_S1x1024x1024_S1024x1024) (shapeCast S1024x1024 x1 shapeCasts_S1x1024x1024_S1024x1024)
        (constant S1024x1024 .f32 0x00000000#32) (ix2 c j)
      = Spec.proj (fun c d => x0 (ix3 (0 : Fin 1) c d)) (fun j d => x1 (ix3 (0 : Fin 1) j d)) c j := by
  refine (Cert.LibGramDot.matmul_nt_apply _ none _ _ c j).trans ?_
  unfold Spec.proj
  refine Finset.sum_congr rfl fun d _ => ?_
  rw [shapeCast_1ab_ab_apply, shapeCast_1ab_ab_apply]

/-- The stored block at (0, c, d) is the expert layer of the loaded blocks. -/
theorem pay_apply (x0 x1 : FVec Ideal S1x1024x1024 .bf16) (x2 : FVec Ideal S1x1024x512 .bf16) (c d : Fin 1024) :
    k0_pay1 (F := Ideal) x0 x1 x2 (ix3 (0 : Fin 1) c d)
      = Spec.layer (fun c d => x0 (ix3 (0 : Fin 1) c d)) (fun j d => x1 (ix3 (0 : Fin 1) j d))
          (fun d k => x2 (ix3 (0 : Fin 1) d k)) c d := by
  unfold k0_pay1
  refine (shapeCast_ab_1ab_apply _ _ (0 : Fin 1) c d).trans ?_
  refine (Cert.LibGramDot.matmul_nt_apply _ none _ _ c d).trans ?_
  unfold Spec.layer Spec.hidden
  refine Finset.sum_congr rfl fun k _ => ?_
  rw [shapeCast_1ab_ab_apply]
  refine congrArg (· * x2 (ix3 (0 : Fin 1) d k)) ?_
  show (extractStridedSlice S1024x512 ![0, 0] (_ : FVec Ideal S1024x1024 .f32) slices_S1024x1024_o0_0_S1024x512 (ix2 c k)
        * Ideal.logistic (extractStridedSlice S1024x512 ![0, 0] (_ : FVec Ideal S1024x1024 .f32) slices_S1024x1024_o0_0_S1024x512 (ix2 c k)))
      * extractStridedSlice S1024x512 ![0, 512] (_ : FVec Ideal S1024x1024 .f32) slices_S1024x1024_o0_512_S1024x512 (ix2 c k) = _
  rw [slice2_axis1_apply 0 _ slices_S1024x1024_o0_0_S1024x512 c k (Spec.lo k) (by simp),
    slice2_axis1_apply 512 _ slices_S1024x1024_o0_512_S1024x512 c k (Spec.hi k) rfl,
    first_apply, first_apply]

end Cert.KernelIdeal.Pay

end
-- ==== Proof.KernelValue.lean ====
/-
  The kernel's output array after its run. The grid has one point per expert; at point t every window's block is the
  slab [t, :, :] of its array, the body stores the expert layer of its three loaded slabs (Proof/KernelPay.lean), and
  the output's slabs tile its array: so the array ends holding the expert layer `Spec.mlp` of the three operand arrays
  as the region finds them.
-/
import proofs.«120460_j17394617548826_1_alg».proof.Proof.Gen.KernelIdeal.Frame
import proofs.«120460_j17394617548826_1_alg».proof.Proof.KernelPay
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

theorem hz : (![0, 0, 0] : Fin 3 → Nat) = fun _ => 0 := funext fun a => by fin_cases a <;> rfl

/-- At grid point t every window's block index is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The stored block of three blocks that are slab e of three arrays is slab e of the expert layer, index by index:
    an element y of a block sits at (e, y 1, y 2) of its array. -/
theorem block_eq (x0 x1 : FVec Ideal S1x1024x1024 .bf16) (x2 : FVec Ideal S1x1024x512 .bf16)
    (B GU : S64x1024x1024.Idx → EReal) (DW : S64x1024x512.Idx → EReal) (e : Fin 64)
    (h0 : ∀ (y : S1x1024x1024.Idx) (z : S64x1024x1024.Idx), (z 0).val = e.val → (z 1).val = (y 1).val → (z 2).val = (y 2).val → x0 y = B z)
    (h1 : ∀ (y : S1x1024x1024.Idx) (z : S64x1024x1024.Idx), (z 0).val = e.val → (z 1).val = (y 1).val → (z 2).val = (y 2).val → x1 y = GU z)
    (h2 : ∀ (y : S1x1024x512.Idx) (z : S64x1024x512.Idx), (z 0).val = e.val → (z 1).val = (y 1).val → (z 2).val = (y 2).val → x2 y = DW z)
    (j : S1x1024x1024.Idx) (i : S64x1024x1024.Idx) (hi0 : (i 0).val = e.val) (hi1 : (i 1).val = (j 1).val) (hi2 : (i 2).val = (j 2).val) :
    k0_pay1 (F := Ideal) x0 x1 x2 j = Spec.mlp B GU DW i := by
  obtain ⟨u, c, d, rfl⟩ : ∃ (u : Fin 1) (c d : Fin 1024), j = ix3 u c d := ⟨j 0, j 1, j 2, eq_ix3 j⟩
  obtain ⟨e', c', d', rfl⟩ : ∃ (e' : Fin 64) (c' d' : Fin 1024), i = ix3 e' c' d' := ⟨i 0, i 1, i 2, eq_ix3 i⟩
  obtain rfl : e' = e := Fin.ext hi0
  obtain rfl : c' = c := Fin.ext hi1
  obtain rfl : d' = d := Fin.ext hi2
  obtain rfl : u = 0 := Subsingleton.elim _ _
  rw [Pay.pay_apply, Spec.mlp_ix3]
  unfold Spec.mlpAt
  have e0 : (fun c d => x0 (ix3 (0 : Fin 1) c d)) = fun c d => B (ix3 e' c d) :=
    funext fun c => funext fun d => h0 _ _ rfl rfl rfl
  have e1 : (fun j d => x1 (ix3 (0 : Fin 1) j d)) = fun j d => GU (ix3 e' j d) :=
    funext fun c => funext fun d => h1 _ _ rfl rfl rfl
  have e2 : (fun d k => x2 (ix3 (0 : Fin 1) d k)) = fun d k => DW (ix3 e' d k) :=
    funext fun c => funext fun d => h2 _ _ rfl rfl rfl
  rw [e0, e1, e2]

set_option maxHeartbeats 1000000 in
/-- Window 0's block at point t is slab t of its array: its element y sits at (t, y 1, y 2). -/
theorem iblk0_read (c : Dev nD) (t : Fin cfg0.N) (y : S1x1024x1024.Idx) (z : S64x1024x1024.Idx)
    (hz0 : (z 0).val = t.val) (hz1 : (z 1).val = (y 1).val) (hz2 : (z 2).val = (y 2).val) :
    iblk (F := Ideal) m c 0 t y = V m c main_v50 z := by
  obtain ⟨⟨a0, a1, a2⟩, ⟨b0, b1, b2⟩, ⟨c0, c1, c2⟩, ⟨d0, d1, d2⟩⟩ := idx_facts t
  show V m c main_v50 (((cfg0.win 0).blk t).view.emb y) = V m c main_v50 z
  refine congrArg _ ?_
  funext a; apply Fin.ext
  match a with
  | ⟨0, _⟩ => show win0_0.index t (0 : Fin 3) * 1 + 1 * (y 0).val = (z 0).val; have hy : (y 0).val < 1 := (y 0).isLt; omega
  | ⟨1, _⟩ => show win0_0.index t (1 : Fin 3) * 1024 + 1 * (y 1).val = (z 1).val; omega
  | ⟨2, _⟩ => show win0_0.index t (2 : Fin 3) * 1024 + 1 * (y 2).val = (z 2).val; omega

set_option maxHeartbeats 1000000 in
/-- Window 1's block at point t is slab t of its array: its element y sits at (t, y 1, y 2). -/
theorem iblk1_read (c : Dev nD) (t : Fin cfg0.N) (y : S1x1024x1024.Idx) (z : S64x1024x1024.Idx)
    (hz0 : (z 0).val = t.val) (hz1 : (z 1).val = (y 1).val) (hz2 : (z 2).val = (y 2).val) :
    iblk (F := Ideal) m c 1 t y = V m c main_v51 z := by
  obtain ⟨⟨a0, a1, a2⟩, ⟨b0, b1, b2⟩, ⟨c0, c1, c2⟩, ⟨d0, d1, d2⟩⟩ := idx_facts t
  show V m c main_v51 (((cfg0.win 1).blk t).view.emb y) = V m c main_v51 z
  refine congrArg _ ?_
  funext a; apply Fin.ext
  match a with
  | ⟨0, _⟩ => show win0_1.index t (0 : Fin 3) * 1 + 1 * (y 0).val = (z 0).val; have hy : (y 0).val < 1 := (y 0).isLt; omega
  | ⟨1, _⟩ => show win0_1.index t (1 : Fin 3) * 1024 + 1 * (y 1).val = (z 1).val; omega
  | ⟨2, _⟩ => show win0_1.index t (2 : Fin 3) * 1024 + 1 * (y 2).val = (z 2).val; omega

set_option maxHeartbeats 1000000 in
/-- Window 2's block at point t is slab t of its array: its element y sits at (t, y 1, y 2). -/
theorem iblk2_read (c : Dev nD) (t : Fin cfg0.N) (y : S1x1024x512.Idx) (z : S64x1024x512.Idx)
    (hz0 : (z 0).val = t.val) (hz1 : (z 1).val = (y 1).val) (hz2 : (z 2).val = (y 2).val) :
    iblk (F := Ideal) m c 2 t y = V m c main_v52 z := by
  obtain ⟨⟨a0, a1, a2⟩, ⟨b0, b1, b2⟩, ⟨c0, c1, c2⟩, ⟨d0, d1, d2⟩⟩ := idx_facts t
  show V m c main_v52 (((cfg0.win 2).blk t).view.emb y) = V m c main_v52 z
  refine congrArg _ ?_
  funext a; apply Fin.ext
  match a with
  | ⟨0, _⟩ => show win0_2.index t (0 : Fin 3) * 1 + 1 * (y 0).val = (z 0).val; have hy : (y 0).val < 1 := (y 0).isLt; omega
  | ⟨1, _⟩ => show win0_2.index t (1 : Fin 3) * 1024 + 1 * (y 1).val = (z 1).val; omega
  | ⟨2, _⟩ => show win0_2.index t (2 : Fin 3) * 512 + 1 * (y 2).val = (z 2).val; omega

set_option maxHeartbeats 1000000 in
/-- WHAT POINT t WRITES BACK is slab t of the expert layer of the three operand arrays as the region finds them. -/
theorem flushed3_eq (c : Dev nD) (t : Fin cfg0.N) :
    (dats (F := Ideal) m 0 c).flushed 3 t
      = ((cfg0.win 3).blk t).view.read (Elt Ideal) (Spec.mlp (V m c main_v50) (V m c main_v51) (V m c main_v52)) := by
  show (cfg0.win 3).cut (grid0.coords t) ((dats (F := Ideal) m 0 c).after 3 t) = _
  rw [after0_3]
  unfold out0_3
  rw [View.canon_unit_zero hz]
  simp only [View.ld_unit_zero (S := S1x1024x1024) hz, View.ld_unit_zero (S := S1x1024x512) hz]
  have ht : t.val < 64 := lt_of_lt_of_eq t.isLt N_0
  obtain ⟨⟨a0, a1, a2⟩, ⟨b0, b1, b2⟩, ⟨c0, c1, c2⟩, ⟨d0, d1, d2⟩⟩ := idx_facts t
  funext j
  show k0_pay1 (F := Ideal) (iblk m c 0 t) (iblk m c 1 t) (iblk m c 2 t) j
    = Spec.mlp (V m c main_v50) (V m c main_v51) (V m c main_v52) (((cfg0.win 3).blk t).view.emb j)
  refine block_eq (iblk m c 0 t) (iblk m c 1 t) (iblk m c 2 t) (V m c main_v50) (V m c main_v51) (V m c main_v52)
    ⟨t.val, ht⟩ (fun y z h0 h1 h2 => iblk0_read m c t y z h0 h1 h2) (fun y z h0 h1 h2 => iblk1_read m c t y z h0 h1 h2)
    (fun y z h0 h1 h2 => iblk2_read m c t y z h0 h1 h2) j (((cfg0.win 3).blk t).view.emb j) ?_ ?_ ?_
  · show win0_3.index t (0 : Fin 3) * 1 + 1 * (j 0).val = t.val
    have hj : (j 0).val < 1 := (j 0).isLt
    omega
  · show win0_3.index t (1 : Fin 3) * 1024 + 1 * (j 1).val = (j 1).val
    omega
  · show win0_3.index t (2 : Fin 3) * 1024 + 1 * (j 2).val = (j 2).val
    omega

/-- An index of the output array is in point t's block iff each coordinate is in the block's range on its axis. -/
theorem mem_blk3 (t : Fin cfg0.N) (i : S64x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v53).slice (win0_3.rect t)).set ↔ _
  rw [View.set_slice_whole, Rect.mem_set_unit]
  exact Iff.rfl

/-- Every expert's slab is some point's block. -/
theorem idx_onto3 : ∀ q : Fin 64, ∃ t : Fin cfg0.N, win0_3.index t = ![q.val, 0, 0] :=
  (by decide +kernel : ∀ q : Fin 64, ∃ t : Fin grid0.N, win0_3.index t = ![q.val, 0, 0])

/-- The output's blocks cover its array. -/
theorem cover3 (i : S64x1024x1024.Idx) :
    ∃ t : Fin cfg0.N, (cfg0.win 3).flush t = true ∧ i ∈ ((cfg0.win 3).blk t).view.set := by
  have hi0 : (i 0).val < 64 := (i 0).isLt
  have hi1 : (i 1).val < 1024 := (i 1).isLt
  have hi2 : (i 2).val < 1024 := (i 2).isLt
  obtain ⟨t, ht⟩ := idx_onto3 ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- THE OUTPUT ARRAY after the run: the expert layer of the three operand arrays as the region finds them. -/
theorem final3 (c : Dev nD) :
    (dats (F := Ideal) m 0 c).arrAt 3 cfg0.N = Spec.mlp (V m c main_v50) (V m c main_v51) (V m c main_v52) :=
  (dats (F := Ideal) m 0 c).arrAt_eq_of_cover 3 _ (fun t _ => flushed3_eq m c t) cover3

end Cert.KernelIdeal.Val

end
-- ==== Proof.BridgeTac.lean ====
/-
  Reading a fold of host operations at one buffer. A concatenation of two arrays is named as a function of the two
  (so that its operands are plain arguments), and `host_results` rewrites, in one simplifier pass, the fold at a buffer
  into the operations' functions of the contents of earlier buffers.
-/
import Idealize.ShloMosaic.Lib.StableHlo.Run

noncomputable section

namespace Cert.Bridge

open Idealize.ShloMosaic Idealize.ShloMosaic.StableHlo

/-- Two arrays of one shape concatenated along an axis: the concatenation of the two-element list. -/
def cat2 {α : Type} (t : Shape) (a : Fin t.rank) (s : Shape) (h : Shape.Concatenates [s, s] t a) (u v : s.Idx → α) :
    t.Idx → α :=
  concatenate t a [⟨s, u⟩, ⟨s, v⟩] h

theorem cat2_def {α : Type} (t : Shape) (a : Fin t.rank) (s : Shape) (h : Shape.Concatenates [s, s] t a)
    (u v : s.Idx → α) : concatenate t a [⟨s, u⟩, ⟨s, v⟩] h = cat2 t a s h u v := rfl

/-- The host fold at a buffer as the operations' functions of earlier buffers, in one simplifier pass. -/
macro "host_results" : tactic =>
  `(tactic| simp (disch := decide) only [after_cons, after_nil,
      nullary_result', unary_result', binary_result', ternary_result', reshape_result',
      nullary_result_ne', unary_result_ne', binary_result_ne', ternary_result_ne', reshape_result_ne', cat2_def])

end Cert.Bridge

end
-- ==== Proof.BridgePreA.lean ====
/-
  The routing is one computation in both programs. Up to the scatter-add that fills the dispatch buffer the kernel's
  program and the reference run the same host operations on the same arguments; read at the buffers the later lines use
  — the flattened expert indices, routing weights and token indices, the in-capacity mask and the slot of each pair —
  the two folds are the same functions of the arguments.
-/
import proofs.«120460_j17394617548826_1_alg».proof.Proof.RefRun
import proofs.«120460_j17394617548826_1_alg».proof.Proof.Gen.KernelIdeal.Frame
import proofs.«120460_j17394617548826_1_alg».proof.Proof.BridgeTac

set_option maxHeartbeats 1000000

noncomputable section

namespace Cert.Bridge

open Idealize.ShloMosaic Idealize.SL.Sem Idealize.ShloMosaic.StableHlo

variable {F : FTy → Type} [FloatOps F]

/-- The flattened expert indices. -/
theorem pre_v0 (MK : Valuation KernelIdeal.τ KernelIdeal.sig (Elt F)) (MR : Valuation ReferenceIdeal.τ ReferenceIdeal.sig (Elt F))
    (h1 : MK (Proc.devRef .tc KernelIdeal.main_arg1) = MR (Proc.devRef .tc ReferenceIdeal.main_arg1)) :
    after (List.flatten [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7]) MK (Proc.devRef .tc KernelIdeal.main_v0)
      = after (ReferenceIdeal.Ops.preI (F := F)).flatten MR (Proc.devRef .tc ReferenceIdeal.main_v0) := by
  simp only [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7,
    ReferenceIdeal.Ops.preI, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0,
    List.flatten_cons, List.flatten_nil, List.append_nil, List.cons_append, List.nil_append]
  host_results
  rw [h1]
  rfl

/-- The flattened routing weights. -/
theorem pre_v1 (MK : Valuation KernelIdeal.τ KernelIdeal.sig (Elt F)) (MR : Valuation ReferenceIdeal.τ ReferenceIdeal.sig (Elt F))
    (h2 : MK (Proc.devRef .tc KernelIdeal.main_arg2) = MR (Proc.devRef .tc ReferenceIdeal.main_arg2)) :
    after (List.flatten [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7]) MK (Proc.devRef .tc KernelIdeal.main_v1)
      = after (ReferenceIdeal.Ops.preI (F := F)).flatten MR (Proc.devRef .tc ReferenceIdeal.main_v1) := by
  simp only [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7,
    ReferenceIdeal.Ops.preI, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0,
    List.flatten_cons, List.flatten_nil, List.append_nil, List.cons_append, List.nil_append]
  host_results
  rw [h2]
  rfl

/-- The token index of each (token, expert) pair. -/
theorem pre_v4 (MK : Valuation KernelIdeal.τ KernelIdeal.sig (Elt F)) (MR : Valuation ReferenceIdeal.τ ReferenceIdeal.sig (Elt F))
    (h : True) :
    after (List.flatten [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7]) MK (Proc.devRef .tc KernelIdeal.main_v4)
      = after (ReferenceIdeal.Ops.preI (F := F)).flatten MR (Proc.devRef .tc ReferenceIdeal.main_v4) := by
  simp only [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7,
    ReferenceIdeal.Ops.preI, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0,
    List.flatten_cons, List.flatten_nil, List.append_nil, List.cons_append, List.nil_append]
  host_results
  rfl

/-- The in-capacity mask of each pair. -/
theorem pre_v24 (MK : Valuation KernelIdeal.τ KernelIdeal.sig (Elt F)) (MR : Valuation ReferenceIdeal.τ ReferenceIdeal.sig (Elt F))
    (h1 : MK (Proc.devRef .tc KernelIdeal.main_arg1) = MR (Proc.devRef .tc ReferenceIdeal.main_arg1)) :
    after (List.flatten [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7]) MK (Proc.devRef .tc KernelIdeal.main_v24)
      = after (ReferenceIdeal.Ops.preI (F := F)).flatten MR (Proc.devRef .tc ReferenceIdeal.main_v24) := by
  simp only [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7,
    ReferenceIdeal.Ops.preI, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0,
    List.flatten_cons, List.flatten_nil, List.append_nil, List.cons_append, List.nil_append]
  host_results
  rw [h1]
  rfl

/-- The slot of each pair in its expert's buffer. -/
theorem pre_v25 (MK : Valuation KernelIdeal.τ KernelIdeal.sig (Elt F)) (MR : Valuation ReferenceIdeal.τ ReferenceIdeal.sig (Elt F))
    (h1 : MK (Proc.devRef .tc KernelIdeal.main_arg1) = MR (Proc.devRef .tc ReferenceIdeal.main_arg1)) :
    after (List.flatten [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7]) MK (Proc.devRef .tc KernelIdeal.main_v25)
      = after (ReferenceIdeal.Ops.preI (F := F)).flatten MR (Proc.devRef .tc ReferenceIdeal.main_v25) := by
  simp only [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7,
    ReferenceIdeal.Ops.preI, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0,
    List.flatten_cons, List.flatten_nil, List.append_nil, List.cons_append, List.nil_append]
  host_results
  rw [h1]
  rfl

end Cert.Bridge

end
-- ==== Proof.BridgePreB.lean ====
/-
  The kernel's three operands. The dispatch buffer the kernel's program rounds to bf16 is the reference's dispatch
  buffer (the same host operations on the same arguments), and its other two operands are the two weight arguments
  rounded to bf16.
-/
import proofs.«120460_j17394617548826_1_alg».proof.Proof.RefRun
import proofs.«120460_j17394617548826_1_alg».proof.Proof.Gen.KernelIdeal.Frame
import proofs.«120460_j17394617548826_1_alg».proof.Proof.BridgeTac

set_option maxHeartbeats 1000000

noncomputable section

namespace Cert.Bridge

open Idealize.ShloMosaic Idealize.SL.Sem Idealize.ShloMosaic.StableHlo

variable {F : FTy → Type} [FloatOps F]

/-- The kernel's first operand: the reference's dispatch buffer, rounded. -/
theorem pre_v50 (MK : Valuation KernelIdeal.τ KernelIdeal.sig (Elt F)) (MR : Valuation ReferenceIdeal.τ ReferenceIdeal.sig (Elt F))
    (h0 : MK (Proc.devRef .tc KernelIdeal.main_arg0) = MR (Proc.devRef .tc ReferenceIdeal.main_arg0)) (h1 : MK (Proc.devRef .tc KernelIdeal.main_arg1) = MR (Proc.devRef .tc ReferenceIdeal.main_arg1)) :
    after (List.flatten [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7]) MK (Proc.devRef .tc KernelIdeal.main_v50)
      = truncf .bf16 (after (ReferenceIdeal.Ops.preI (F := F)).flatten MR (Proc.devRef .tc ReferenceIdeal.main_v49)) KernelIdeal.Gen.bitsLt_bf16_f32 := by
  simp only [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7,
    ReferenceIdeal.Ops.preI, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0,
    List.flatten_cons, List.flatten_nil, List.append_nil, List.cons_append, List.nil_append]
  host_results
  rw [h0, h1]
  rfl

/-- The kernel's second operand: the gate/up weights, rounded. -/
theorem pre_v51 (MK : Valuation KernelIdeal.τ KernelIdeal.sig (Elt F)) (MR : Valuation ReferenceIdeal.τ ReferenceIdeal.sig (Elt F))
    (h : True) :
    after (List.flatten [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7]) MK (Proc.devRef .tc KernelIdeal.main_v51)
      = truncf .bf16 (MK (Proc.devRef .tc KernelIdeal.main_arg3)) KernelIdeal.Gen.bitsLt_bf16_f32 := by
  simp only [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7,
    ReferenceIdeal.Ops.preI, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0,
    List.flatten_cons, List.flatten_nil, List.append_nil, List.cons_append, List.nil_append]
  host_results

/-- The kernel's third operand: the down weights, rounded. -/
theorem pre_v52 (MK : Valuation KernelIdeal.τ KernelIdeal.sig (Elt F)) (MR : Valuation ReferenceIdeal.τ ReferenceIdeal.sig (Elt F))
    (h : True) :
    after (List.flatten [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7]) MK (Proc.devRef .tc KernelIdeal.main_v52)
      = truncf .bf16 (MK (Proc.devRef .tc KernelIdeal.main_arg4)) KernelIdeal.Gen.bitsLt_bf16_f32 := by
  simp only [KernelIdeal.Gen.hostOps0, KernelIdeal.Gen.hostOps0_1, KernelIdeal.Gen.hostOps0_2, KernelIdeal.Gen.hostOps0_3, KernelIdeal.Gen.hostOps0_4, KernelIdeal.Gen.hostOps0_5, KernelIdeal.Gen.hostOps0_6, KernelIdeal.Gen.hostOps0_7,
    ReferenceIdeal.Ops.preI, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0,
    List.flatten_cons, List.flatten_nil, List.append_nil, List.cons_append, List.nil_append]
  host_results

end Cert.Bridge

end
-- ==== Proof.BridgeTail.lean ====
/-
  The weighted combine is one computation in both programs. After the expert layer the kernel's program and the
  reference run the same host operations — gather each pair's output row, scale it by its routing weight where the pair
  was within capacity, scatter-add the rows back to their tokens — on the routing values and the expert layer's output:
  equal inputs give equal results. With it: the reference's expert-layer stretches leave the routing values as they
  were, and no stretch of the reference writes an argument.
-/
import proofs.«120460_j17394617548826_1_alg».proof.Proof.RefRun
import proofs.«120460_j17394617548826_1_alg».proof.Proof.Gen.KernelIdeal.Frame
import proofs.«120460_j17394617548826_1_alg».proof.Proof.BridgeTac

set_option maxHeartbeats 1000000

noncomputable section

namespace Cert.Bridge

open Idealize.ShloMosaic Idealize.SL.Sem Idealize.ShloMosaic.StableHlo

variable {F : FTy → Type} [FloatOps F]

/-- The combine of the kernel's program and of the reference agree when the routing values and the expert layer's
    outputs they read agree. -/
theorem tail_eq (WK : Valuation KernelIdeal.τ KernelIdeal.sig (Elt F)) (WR : Valuation ReferenceIdeal.τ ReferenceIdeal.sig (Elt F))
    (h0 : WK (Proc.devRef .tc KernelIdeal.main_v0) = WR (Proc.devRef .tc ReferenceIdeal.main_v0))
    (h1 : WK (Proc.devRef .tc KernelIdeal.main_v1) = WR (Proc.devRef .tc ReferenceIdeal.main_v1))
    (h4 : WK (Proc.devRef .tc KernelIdeal.main_v4) = WR (Proc.devRef .tc ReferenceIdeal.main_v4))
    (h24 : WK (Proc.devRef .tc KernelIdeal.main_v24) = WR (Proc.devRef .tc ReferenceIdeal.main_v24))
    (h25 : WK (Proc.devRef .tc KernelIdeal.main_v25) = WR (Proc.devRef .tc ReferenceIdeal.main_v25))
    (hy : WK (Proc.devRef .tc KernelIdeal.main_v53) = WR (Proc.devRef .tc ReferenceIdeal.main_v55)) :
    after (KernelIdeal.Gen.hostOps1 (F := F)) WK (Proc.devRef .tc KernelIdeal.main_v80)
      = after (ReferenceIdeal.Ops.part1_ops4 (F := F)) WR (Proc.devRef .tc ReferenceIdeal.main_v82) := by
  simp only [KernelIdeal.Gen.hostOps1, ReferenceIdeal.Ops.part1_ops4]
  host_results
  rw [h0, h1, h4, h24, h25, hy]
  rfl

theorem mid_v0 (W : Valuation ReferenceIdeal.τ ReferenceIdeal.sig (Elt F)) :
    after (ReferenceIdeal.Ops.midI (F := F)).flatten W (Proc.devRef .tc ReferenceIdeal.main_v0) = W (Proc.devRef .tc ReferenceIdeal.main_v0) := by
  simp only [ReferenceIdeal.Ops.midI, ReferenceIdeal.Ops.part1_ops1, ReferenceIdeal.Ops.part1_ops2, ReferenceIdeal.Ops.part1_ops3, List.flatten_cons, List.flatten_nil, List.append_nil, List.cons_append, List.nil_append]
  host_results

theorem mid_v1 (W : Valuation ReferenceIdeal.τ ReferenceIdeal.sig (Elt F)) :
    after (ReferenceIdeal.Ops.midI (F := F)).flatten W (Proc.devRef .tc ReferenceIdeal.main_v1) = W (Proc.devRef .tc ReferenceIdeal.main_v1) := by
  simp only [ReferenceIdeal.Ops.midI, ReferenceIdeal.Ops.part1_ops1, ReferenceIdeal.Ops.part1_ops2, ReferenceIdeal.Ops.part1_ops3, List.flatten_cons, List.flatten_nil, List.append_nil, List.cons_append, List.nil_append]
  host_results

theorem mid_v4 (W : Valuation ReferenceIdeal.τ ReferenceIdeal.sig (Elt F)) :
    after (ReferenceIdeal.Ops.midI (F := F)).flatten W (Proc.devRef .tc ReferenceIdeal.main_v4) = W (Proc.devRef .tc ReferenceIdeal.main_v4) := by
  simp only [ReferenceIdeal.Ops.midI, ReferenceIdeal.Ops.part1_ops1, ReferenceIdeal.Ops.part1_ops2, ReferenceIdeal.Ops.part1_ops3, List.flatten_cons, List.flatten_nil, List.append_nil, List.cons_append, List.nil_append]
  host_results

theorem mid_v24 (W : Valuation ReferenceIdeal.τ ReferenceIdeal.sig (Elt F)) :
    after (ReferenceIdeal.Ops.midI (F := F)).flatten W (Proc.devRef .tc ReferenceIdeal.main_v24) = W (Proc.devRef .tc ReferenceIdeal.main_v24) := by
  simp only [ReferenceIdeal.Ops.midI, ReferenceIdeal.Ops.part1_ops1, ReferenceIdeal.Ops.part1_ops2, ReferenceIdeal.Ops.part1_ops3, List.flatten_cons, List.flatten_nil, List.append_nil, List.cons_append, List.nil_append]
  host_results

theorem mid_v25 (W : Valuation ReferenceIdeal.τ ReferenceIdeal.sig (Elt F)) :
    after (ReferenceIdeal.Ops.midI (F := F)).flatten W (Proc.devRef .tc ReferenceIdeal.main_v25) = W (Proc.devRef .tc ReferenceIdeal.main_v25) := by
  simp only [ReferenceIdeal.Ops.midI, ReferenceIdeal.Ops.part1_ops1, ReferenceIdeal.Ops.part1_ops2, ReferenceIdeal.Ops.part1_ops3, List.flatten_cons, List.flatten_nil, List.append_nil, List.cons_append, List.nil_append]
  host_results

theorem pre_arg3 (M : Valuation ReferenceIdeal.τ ReferenceIdeal.sig (Elt F)) :
    after (ReferenceIdeal.Ops.preI (F := F)).flatten M (Proc.devRef .tc ReferenceIdeal.main_arg3) = M (Proc.devRef .tc ReferenceIdeal.main_arg3) := by
  simp only [ReferenceIdeal.Ops.preI, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0, List.flatten_cons, List.flatten_nil, List.append_nil, List.cons_append, List.nil_append]
  host_results

theorem pre_arg4 (M : Valuation ReferenceIdeal.τ ReferenceIdeal.sig (Elt F)) :
    after (ReferenceIdeal.Ops.preI (F := F)).flatten M (Proc.devRef .tc ReferenceIdeal.main_arg4) = M (Proc.devRef .tc ReferenceIdeal.main_arg4) := by
  simp only [ReferenceIdeal.Ops.preI, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0, List.flatten_cons, List.flatten_nil, List.append_nil, List.cons_append, List.nil_append]
  host_results

theorem all_arg0 (M : Valuation ReferenceIdeal.τ ReferenceIdeal.sig (Elt F)) :
    after (ReferenceIdeal.Ops.opss (F := F)).flatten M (Proc.devRef .tc ReferenceIdeal.main_arg0) = M (Proc.devRef .tc ReferenceIdeal.main_arg0) := by
  simp only [ReferenceIdeal.Ops.opss, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0, ReferenceIdeal.Ops.part1_ops1, ReferenceIdeal.Ops.part1_ops2, ReferenceIdeal.Ops.part1_ops3, ReferenceIdeal.Ops.part1_ops4, List.flatten_cons, List.flatten_nil, List.append_nil, List.cons_append, List.nil_append]
  host_results

theorem all_arg1 (M : Valuation ReferenceIdeal.τ ReferenceIdeal.sig (Elt F)) :
    after (ReferenceIdeal.Ops.opss (F := F)).flatten M (Proc.devRef .tc ReferenceIdeal.main_arg1) = M (Proc.devRef .tc ReferenceIdeal.main_arg1) := by
  simp only [ReferenceIdeal.Ops.opss, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0, ReferenceIdeal.Ops.part1_ops1, ReferenceIdeal.Ops.part1_ops2, ReferenceIdeal.Ops.part1_ops3, ReferenceIdeal.Ops.part1_ops4, List.flatten_cons, List.flatten_nil, List.append_nil, List.cons_append, List.nil_append]
  host_results

theorem all_arg2 (M : Valuation ReferenceIdeal.τ ReferenceIdeal.sig (Elt F)) :
    after (ReferenceIdeal.Ops.opss (F := F)).flatten M (Proc.devRef .tc ReferenceIdeal.main_arg2) = M (Proc.devRef .tc ReferenceIdeal.main_arg2) := by
  simp only [ReferenceIdeal.Ops.opss, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0, ReferenceIdeal.Ops.part1_ops1, ReferenceIdeal.Ops.part1_ops2, ReferenceIdeal.Ops.part1_ops3, ReferenceIdeal.Ops.part1_ops4, List.flatten_cons, List.flatten_nil, List.append_nil, List.cons_append, List.nil_append]
  host_results

theorem all_arg3 (M : Valuation ReferenceIdeal.τ ReferenceIdeal.sig (Elt F)) :
    after (ReferenceIdeal.Ops.opss (F := F)).flatten M (Proc.devRef .tc ReferenceIdeal.main_arg3) = M (Proc.devRef .tc ReferenceIdeal.main_arg3) := by
  simp only [ReferenceIdeal.Ops.opss, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0, ReferenceIdeal.Ops.part1_ops1, ReferenceIdeal.Ops.part1_ops2, ReferenceIdeal.Ops.part1_ops3, ReferenceIdeal.Ops.part1_ops4, List.flatten_cons, List.flatten_nil, List.append_nil, List.cons_append, List.nil_append]
  host_results

theorem all_arg4 (M : Valuation ReferenceIdeal.τ ReferenceIdeal.sig (Elt F)) :
    after (ReferenceIdeal.Ops.opss (F := F)).flatten M (Proc.devRef .tc ReferenceIdeal.main_arg4) = M (Proc.devRef .tc ReferenceIdeal.main_arg4) := by
  simp only [ReferenceIdeal.Ops.opss, ReferenceIdeal.Ops.part0_ops0, ReferenceIdeal.Ops.part0_ops1, ReferenceIdeal.Ops.part0_ops2, ReferenceIdeal.Ops.part0_ops3, ReferenceIdeal.Ops.part0_ops4, ReferenceIdeal.Ops.part0_ops5, ReferenceIdeal.Ops.part0_ops6, ReferenceIdeal.Ops.part0_ops7, ReferenceIdeal.Ops.part1_ops0, ReferenceIdeal.Ops.part1_ops1, ReferenceIdeal.Ops.part1_ops2, ReferenceIdeal.Ops.part1_ops3, ReferenceIdeal.Ops.part1_ops4, List.flatten_cons, List.flatten_nil, List.append_nil, List.cons_append, List.nil_append]
  host_results

end Cert.Bridge

end
-- ==== Proof.Bridge.lean ====
/-
  The two programs end with one result. The kernel's program is: routing and dispatch on the host, the expert layer by
  the kernel, the weighted combine on the host; the reference is the same with the expert layer as host operations.
  The routing values and the dispatch buffer agree (the same host operations on the same arguments), both expert layers
  are `Spec.mlp` of the dispatch buffer and the two weight arguments (rounding to bf16 is the identity on the extended
  reals), and the combine is the same host operations on equal inputs.
-/
import proofs.«120460_j17394617548826_1_alg».proof.Proof.RefMid
import proofs.«120460_j17394617548826_1_alg».proof.Proof.KernelValue
import proofs.«120460_j17394617548826_1_alg».proof.Proof.BridgePreA
import proofs.«120460_j17394617548826_1_alg».proof.Proof.BridgePreB
import proofs.«120460_j17394617548826_1_alg».proof.Proof.BridgeTail

set_option maxHeartbeats 1000000

noncomputable section

namespace Cert.Bridge

open Idealize.ShloMosaic Idealize.ShloMosaic.TcCoe Idealize.SL.Sem Idealize.ShloMosaic.StableHlo

/-- Rounding to bf16 is the identity on the extended reals. -/
theorem truncf_ideal {s : Shape} (x : FVec Ideal s .f32) (h : FTy.bf16.bits < FTy.f32.bits) :
    (truncf .bf16 x h : s.Idx → EReal) = x := rfl

/-- The reference's result is the kernel program's result, on memories that agree on the arguments. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (ha0 : m' ((c.tc : Thread ReferenceIdeal.nD ReferenceIdeal.τ).loc ReferenceIdeal.main_arg0) = m ((c.tc : Thread KernelIdeal.nD KernelIdeal.τ).loc KernelIdeal.main_arg0))
    (ha1 : m' ((c.tc : Thread ReferenceIdeal.nD ReferenceIdeal.τ).loc ReferenceIdeal.main_arg1) = m ((c.tc : Thread KernelIdeal.nD KernelIdeal.τ).loc KernelIdeal.main_arg1))
    (ha2 : m' ((c.tc : Thread ReferenceIdeal.nD ReferenceIdeal.τ).loc ReferenceIdeal.main_arg2) = m ((c.tc : Thread KernelIdeal.nD KernelIdeal.τ).loc KernelIdeal.main_arg2))
    (ha3 : m' ((c.tc : Thread ReferenceIdeal.nD ReferenceIdeal.τ).loc ReferenceIdeal.main_arg3) = m ((c.tc : Thread KernelIdeal.nD KernelIdeal.τ).loc KernelIdeal.main_arg3))
    (ha4 : m' ((c.tc : Thread ReferenceIdeal.nD ReferenceIdeal.τ).loc ReferenceIdeal.main_arg4) = m ((c.tc : Thread KernelIdeal.nD KernelIdeal.τ).loc KernelIdeal.main_arg4)) :
    after (ReferenceIdeal.Ops.opss (F := Ideal)).flatten (launchContents m' c) (Proc.devRef .tc ReferenceIdeal.main_v82)
      = Pipeline.afterTail₀ KernelIdeal.cfgs (KernelIdeal.Gen.dats m) 0 (KernelIdeal.Gen.V0 m) [KernelIdeal.Gen.hostOps1] c KernelIdeal.main_v80 := by
  have hsplit : (ReferenceIdeal.Ops.opss (F := Ideal)).flatten
      = (ReferenceIdeal.Ops.preI (F := Ideal)).flatten ++ ((ReferenceIdeal.Ops.midI (F := Ideal)).flatten ++ ReferenceIdeal.Ops.part1_ops4) := by
    simp only [ReferenceIdeal.Ops.opss, ReferenceIdeal.Ops.preI, ReferenceIdeal.Ops.midI, List.flatten_cons, List.flatten_nil,
      List.append_nil, List.append_assoc]
  rw [hsplit, after_append, after_append]
  unfold Pipeline.afterTail₀
  rw [show List.flatten [KernelIdeal.Gen.hostOps1 (F := Ideal)] = KernelIdeal.Gen.hostOps1 from by
    simp only [List.flatten_cons, List.flatten_nil, List.append_nil]]
  -- the arguments as the two launch contents hold them
  have g0 : (fun b => m (c, b)) (Proc.devRef .tc KernelIdeal.main_arg0) = launchContents m' c (Proc.devRef .tc ReferenceIdeal.main_arg0) := ha0.symm
  have g1 : (fun b => m (c, b)) (Proc.devRef .tc KernelIdeal.main_arg1) = launchContents m' c (Proc.devRef .tc ReferenceIdeal.main_arg1) := ha1.symm
  have g2 : (fun b => m (c, b)) (Proc.devRef .tc KernelIdeal.main_arg2) = launchContents m' c (Proc.devRef .tc ReferenceIdeal.main_arg2) := ha2.symm
  symm
  refine tail_eq _ _ ?_ ?_ ?_ ?_ ?_ ?_
  · rw [Pipeline.withArrays_of_ne _ c (KernelIdeal.Gen.V0 m c) _ KernelIdeal.main_v0 (by exact (by decide : ∀ w, Pipeline.arrRef KernelIdeal.spec0 w ≠ KernelIdeal.main_v0)), mid_v0]
    exact pre_v0 _ _ g1
  · rw [Pipeline.withArrays_of_ne _ c (KernelIdeal.Gen.V0 m c) _ KernelIdeal.main_v1 (by exact (by decide : ∀ w, Pipeline.arrRef KernelIdeal.spec0 w ≠ KernelIdeal.main_v1)), mid_v1]
    exact pre_v1 _ _ g2
  · rw [Pipeline.withArrays_of_ne _ c (KernelIdeal.Gen.V0 m c) _ KernelIdeal.main_v4 (by exact (by decide : ∀ w, Pipeline.arrRef KernelIdeal.spec0 w ≠ KernelIdeal.main_v4)), mid_v4]
    exact pre_v4 _ _ trivial
  · rw [Pipeline.withArrays_of_ne _ c (KernelIdeal.Gen.V0 m c) _ KernelIdeal.main_v24 (by exact (by decide : ∀ w, Pipeline.arrRef KernelIdeal.spec0 w ≠ KernelIdeal.main_v24)), mid_v24]
    exact pre_v24 _ _ g1
  · rw [Pipeline.withArrays_of_ne _ c (KernelIdeal.Gen.V0 m c) _ KernelIdeal.main_v25 (by exact (by decide : ∀ w, Pipeline.arrRef KernelIdeal.spec0 w ≠ KernelIdeal.main_v25)), mid_v25]
    exact pre_v25 _ _ g1
  · refine ((Pipeline.withArrays_arr KernelIdeal.spec0 KernelIdeal.Gen.launch0.win.arr_inj c _ _ 3).trans ?_)
    refine (KernelIdeal.Val.final3 m c).trans ?_
    rw [ReferenceIdeal.Mid.mid_eq, pre_arg3, pre_arg4]
    have e50 := pre_v50 (fun b => m (c, b)) (launchContents m' c) g0 g1
    have e51 := pre_v51 (F := Ideal) (fun b => m (c, b)) (launchContents m' c) trivial
    have e52 := pre_v52 (F := Ideal) (fun b => m (c, b)) (launchContents m' c) trivial
    rw [show KernelIdeal.Gen.V m c KernelIdeal.main_v50 = _ from e50,
      show KernelIdeal.Gen.V m c KernelIdeal.main_v51 = _ from e51,
      show KernelIdeal.Gen.V m c KernelIdeal.main_v52 = _ from e52]
    exact congr (congr (congrArg Spec.mlp rfl) ha3.symm) ha4.symm

end Cert.Bridge

end
-- ==== Proof.lean ====
/-
  The certificate of a mixture-of-experts layer with capacity-based dispatch: a Pallas kernel that runs each expert's
  gated MLP on its slab of the dispatch buffer (rounded to bf16), between host routing/dispatch and a host weighted
  combine, against the same computation written with two batched einsums.

  At the ideal instance the two programs are one function of the arguments on every extended real, with no use of the
  inputs' finiteness: routing, dispatch and combine are the same host operations in both programs (Proof/BridgePreA,
  BridgePreB, BridgeTail); the kernel's output array is the expert layer `Spec.mlp` of its three operands, slab by
  slab (Proof/KernelPay, KernelValue), and so is the reference's pair of batched products around x · (1 / (1 + e⁻ˣ))
  (Proof/RefMid) — the kernel's logistic is that quotient, its bf16 roundings are the identity, and both sides' matrix
  products are the same finite sums. The frames of the two kernel programs are the generated ones; the reference's
  frame and value come from its run as a straight line of host operations (Proof/RefRun). The ideal pass rewrote
  nothing, so `preserves` is `True`.
-/
import proofs.«120460_j17394617548826_1_alg».proof.Defs
import proofs.«120460_j17394617548826_1_alg».proof.Proof.Gen.Kernel
import proofs.«120460_j17394617548826_1_alg».proof.Proof.Gen.Kernel.Skeleton
import proofs.«120460_j17394617548826_1_alg».proof.Proof.Gen.Kernel.Launch
import proofs.«120460_j17394617548826_1_alg».proof.Proof.Gen.Kernel.Points
import proofs.«120460_j17394617548826_1_alg».proof.Proof.Gen.Kernel.Frame
import proofs.«120460_j17394617548826_1_alg».proof.Proof.Gen.KernelIdeal
import proofs.«120460_j17394617548826_1_alg».proof.Proof.Gen.KernelIdeal.Skeleton
import proofs.«120460_j17394617548826_1_alg».proof.Proof.Gen.KernelIdeal.Launch
import proofs.«120460_j17394617548826_1_alg».proof.Proof.Gen.KernelIdeal.Points
import proofs.«120460_j17394617548826_1_alg».proof.Proof.Gen.KernelIdeal.Frame
import proofs.«120460_j17394617548826_1_alg».proof.Proof.Gen.ReferenceIdeal
import proofs.«120460_j17394617548826_1_alg».proof.Proof.Gen.Pre_finite_inputs
import proofs.«120460_j17394617548826_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run as a straight line of host operations, none of which writes an argument. -/
theorem frame_ri : Cert.frame_ReferenceIdeal := fun m ρ _ =>
  (θ_run Cert.ReferenceIdeal.defs _ _).mono (fun r h c =>
      ⟨(h c Cert.ReferenceIdeal.main_arg0).trans (Cert.Bridge.all_arg0 _), (h c Cert.ReferenceIdeal.main_arg1).trans (Cert.Bridge.all_arg1 _),
        (h c Cert.ReferenceIdeal.main_arg2).trans (Cert.Bridge.all_arg2 _), (h c Cert.ReferenceIdeal.main_arg3).trans (Cert.Bridge.all_arg3 _),
        (h c Cert.ReferenceIdeal.main_arg4).trans (Cert.Bridge.all_arg4 _)⟩)
    (Cert.ReferenceIdeal.Ops.run_main (F := Ideal) m ρ)

theorem preserves : Cert.preserves_Kernel_KernelIdeal := trivial

/-- Both idealized programs end with the kernel program's combine of the expert layer `Spec.mlp`: the kernel's by its
    generated frame run read at the result buffer, the reference's by its run and `Bridge.result_eq`. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v80, ?_, ?_⟩
  · refine (θ_run Cert.KernelIdeal.defs _ _).mono (fun r h c => ?_) (Cert.KernelIdeal.Gen.run_main (F := Ideal) m ρ)
    exact ⟨(h c).2 Cert.KernelIdeal.main_v80 (Pipeline.mem_restRefs_of Cert.KernelIdeal.main_v80 (by decide) (by decide)),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c)⟩
  · refine (θ_run Cert.ReferenceIdeal.defs _ _).mono (fun r h c => ?_) (Cert.ReferenceIdeal.Ops.run_main (F := Ideal) m' ρ')
    obtain ⟨e0, e1, e2, e3, e4⟩ := hagree c
    exact ⟨(h c Cert.ReferenceIdeal.main_v82).trans (Cert.Bridge.result_eq m m' c e0 e1 e2 e3 e4),
      (h c Cert.ReferenceIdeal.main_arg0).trans (Cert.Bridge.all_arg0 _), (h c Cert.ReferenceIdeal.main_arg1).trans (Cert.Bridge.all_arg1 _),
      (h c Cert.ReferenceIdeal.main_arg2).trans (Cert.Bridge.all_arg2 _), (h c Cert.ReferenceIdeal.main_arg3).trans (Cert.Bridge.all_arg3 _),
      (h c Cert.ReferenceIdeal.main_arg4).trans (Cert.Bridge.all_arg4 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
